-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x256x256 : Shape := ⟨3, ![64, 256, 256]⟩
abbrev S500x65536 : Shape := ⟨2, ![500, 65536]⟩
abbrev S8x500 : Shape := ⟨2, ![8, 500]⟩
abbrev S8 : Shape := ⟨1, ![8]⟩
abbrev S_ : Shape := ⟨0, ![]⟩

class Facts : Prop where
  bcast_S_S64x256x256 : S_.BroadcastsInDim S64x256x256 (![] : Fin 0 → Fin S64x256x256.rank)
  reducesTo_S64x256x256_S_d0_1_2 : S64x256x256.ReducesTo [0, 1, 2] S_
  h_S_ : 0 < S_.numel
  bcast_S_S500x65536 : S_.BroadcastsInDim S500x65536 (![] : Fin 0 → Fin S500x65536.rank)
  reducesTo_S500x65536_S_d0_1 : S500x65536.ReducesTo [0, 1] S_
  bcast_S_S8x500 : S_.BroadcastsInDim S8x500 (![] : Fin 0 → Fin S8x500.rank)
  reducesTo_S8x500_S_d0_1 : S8x500.ReducesTo [0, 1] S_
  bcast_S_S8 : S_.BroadcastsInDim S8 (![] : Fin 0 → Fin S8.rank)
  reducesTo_S8_S_d0 : S8.ReducesTo [0] S_

variable [Facts]

def fn_part1 {F : FTy → Type} [FloatOps F] (main_v13 : IVec S_ 1) (main_v16 : IVec S8 1) : IVec S_ 1 :=
  let main_c_5 : IVec S_ 1 := constantI S_ 1 1#1
  let main_v17 : IVec S_ 1 := (fun x v => Host.reduce IntOp.andi x v reducesTo_S8_S_d0 h_S_) main_v16 main_c_5
  let main_v18 : IVec S_ 1 := andi main_v13 main_v17
  main_v18

def fn {F : FTy → Type} [FloatOps F] (main_arg0 : FVec F S64x256x256 .f32) (main_arg1 : FVec F S500x65536 .f32) (main_arg2 : FVec F S8x500 .f32) (main_arg3 : FVec F S8 .f32) : IVec S_ 1 :=
  let main_v0 : FVec F S64x256x256 .f32 := Host.absf main_arg0
  let main_cst : FVec F S_ .f32 := constant S_ .f32 0x7F800000#32
  let main_v1 : FVec F S64x256x256 .f32 := broadcastInDim S64x256x256 ![] bcast_S_S64x256x256 main_cst
  let main_v2 : IVec S64x256x256 1 := cmpf .olt main_v0 main_v1
  let main_c : IVec S_ 1 := constantI S_ 1 1#1
  let main_v3 : IVec S_ 1 := (fun x v => Host.reduce IntOp.andi x v reducesTo_S64x256x256_S_d0_1_2 h_S_) main_v2 main_c
  let main_v4 : FVec F S500x65536 .f32 := Host.absf main_arg1
  let main_cst_0 : FVec F S_ .f32 := constant S_ .f32 0x7F800000#32
  let main_v5 : FVec F S500x65536 .f32 := broadcastInDim S500x65536 ![] bcast_S_S500x65536 main_cst_0
  let main_v6 : IVec S500x65536 1 := cmpf .olt main_v4 main_v5
  let main_c_1 : IVec S_ 1 := constantI S_ 1 1#1
  let main_v7 : IVec S_ 1 := (fun x v => Host.reduce IntOp.andi x v reducesTo_S500x65536_S_d0_1 h_S_) main_v6 main_c_1
  let main_v8 : IVec S_ 1 := andi main_v3 main_v7
  let main_v9 : FVec F S8x500 .f32 := Host.absf main_arg2
  let main_cst_2 : FVec F S_ .f32 := constant S_ .f32 0x7F800000#32
  let main_v10 : FVec F S8x500 .f32 := broadcastInDim S8x500 ![] bcast_S_S8x500 main_cst_2
  let main_v11 : IVec S8x500 1 := cmpf .olt main_v9 main_v10
  let main_c_3 : IVec S_ 1 := constantI S_ 1 1#1
  let main_v12 : IVec S_ 1 := (fun x v => Host.reduce IntOp.andi x v reducesTo_S8x500_S_d0_1 h_S_) main_v11 main_c_3
  let main_v13 : IVec S_ 1 := andi main_v8 main_v12
  let main_v14 : FVec F S8 .f32 := Host.absf main_arg3
  let main_cst_4 : FVec F S_ .f32 := constant S_ .f32 0x7F800000#32
  let main_v15 : FVec F S8 .f32 := broadcastInDim S8 ![] bcast_S_S8 main_cst_4
  let main_v16 : IVec S8 1 := cmpf .olt main_v14 main_v15
  fn_part1 (F := F) main_v13 main_v16
-- ==== Kernel.lean ====
abbrev S64x256x256 : Shape := ⟨3, ![64, 256, 256]⟩
abbrev S500x65536 : Shape := ⟨2, ![500, 65536]⟩
abbrev S8x500 : Shape := ⟨2, ![8, 500]⟩
abbrev S8 : Shape := ⟨1, ![8]⟩
abbrev S64x65536 : Shape := ⟨2, ![64, 65536]⟩
abbrev S2x64x500 : Shape := ⟨3, ![2, 64, 500]⟩
abbrev S2x64x1 : Shape := ⟨3, ![2, 64, 1]⟩
abbrev S2x1x500 : Shape := ⟨3, ![2, 1, 500]⟩
abbrev S64x8192 : Shape := ⟨2, ![64, 8192]⟩
abbrev S500x8192 : Shape := ⟨2, ![500, 8192]⟩
abbrev S1x64x500 : Shape := ⟨3, ![1, 64, 500]⟩
abbrev S1x64x1 : Shape := ⟨3, ![1, 64, 1]⟩
abbrev S1x1x500 : Shape := ⟨3, ![1, 1, 500]⟩
abbrev S64x500 : Shape := ⟨2, ![64, 500]⟩
abbrev S64x1 : Shape := ⟨2, ![64, 1]⟩
abbrev S1x500 : Shape := ⟨2, ![1, 500]⟩
abbrev S64 : Shape := ⟨1, ![64]⟩
abbrev S1x8192 : Shape := ⟨2, ![1, 8192]⟩
abbrev S_ : Shape := ⟨0, ![]⟩
abbrev S500x8 : Shape := ⟨2, ![500, 8]⟩
abbrev S64x8 : Shape := ⟨2, ![64, 8]⟩
abbrev S1x8 : Shape := ⟨2, ![1, 8]⟩

abbrev nBuf : Space → Nat
  | .hbm => 39
  | .vmem => 13
  | .smem => 0
  | _ => 0

abbrev bufTy : (tb : Table) → Fin (tcTables nBuf tb) → BufTy
  | .hbm, ⟨0, _⟩ => ⟨S64x256x256, .f32⟩
  | .hbm, ⟨1, _⟩ => ⟨S500x65536, .f32⟩
  | .hbm, ⟨2, _⟩ => ⟨S8x500, .f32⟩
  | .hbm, ⟨3, _⟩ => ⟨S8, .f32⟩
  | .hbm, ⟨4, _⟩ => ⟨S64x65536, .f32⟩
  | .hbm, ⟨5, _⟩ => ⟨S2x64x500, .f32⟩
  | .hbm, ⟨6, _⟩ => ⟨S2x64x1, .f32⟩
  | .hbm, ⟨7, _⟩ => ⟨S2x1x500, .f32⟩
  | .hbm, ⟨8, _⟩ => ⟨S1x64x500, .f32⟩
  | .hbm, ⟨9, _⟩ => ⟨S64x500, .f32⟩
  | .hbm, ⟨10, _⟩ => ⟨S1x64x500, .f32⟩
  | .hbm, ⟨11, _⟩ => ⟨S64x500, .f32⟩
  | .hbm, ⟨12, _⟩ => ⟨S64x500, .f32⟩
  | .hbm, ⟨13, _⟩ => ⟨S1x64x1, .f32⟩
  | .hbm, ⟨14, _⟩ => ⟨S64x1, .f32⟩
  | .hbm, ⟨15, _⟩ => ⟨S1x64x1, .f32⟩
  | .hbm, ⟨16, _⟩ => ⟨S64x1, .f32⟩
  | .hbm, ⟨17, _⟩ => ⟨S64x1, .f32⟩
  | .hbm, ⟨18, _⟩ => ⟨S1x1x500, .f32⟩
  | .hbm, ⟨19, _⟩ => ⟨S1x500, .f32⟩
  | .hbm, ⟨20, _⟩ => ⟨S1x1x500, .f32⟩
  | .hbm, ⟨21, _⟩ => ⟨S1x500, .f32⟩
  | .hbm, ⟨22, _⟩ => ⟨S1x500, .f32⟩
  | .hbm, ⟨23, _⟩ => ⟨S_, .f32⟩
  | .hbm, ⟨24, _⟩ => ⟨S64x500, .f32⟩
  | .hbm, ⟨25, _⟩ => ⟨S64x500, .f32⟩
  | .hbm, ⟨26, _⟩ => ⟨S64x500, .f32⟩
  | .hbm, ⟨27, _⟩ => ⟨S64x500, .f32⟩
  | .hbm, ⟨28, _⟩ => ⟨S64x500, .f32⟩
  | .hbm, ⟨29, _⟩ => ⟨S64x500, .f32⟩
  | .hbm, ⟨30, _⟩ => ⟨S_, .f32⟩
  | .hbm, ⟨31, _⟩ => ⟨S64x500, .f32⟩
  | .hbm, ⟨32, _⟩ => ⟨S64x500, .f32⟩
  | .hbm, ⟨33, _⟩ => ⟨S64x500, .f32⟩
  | .hbm, ⟨34, _⟩ => ⟨S500x8, .f32⟩
  | .hbm, ⟨35, _⟩ => ⟨S64x8, .f32⟩
  | .hbm, ⟨36, _⟩ => ⟨S1x8, .f32⟩
  | .hbm, ⟨37, _⟩ => ⟨S64x8, .f32⟩
  | .hbm, ⟨38, _⟩ => ⟨S64x8, .f32⟩
  | .local _ .vmem, ⟨0, _⟩ => ⟨S64x8192, .f32⟩
  | .local _ .vmem, ⟨1, _⟩ => ⟨S64x8192, .f32⟩
  | .local _ .vmem, ⟨2, _⟩ => ⟨S500x8192, .f32⟩
  | .local _ .vmem, ⟨3, _⟩ => ⟨S500x8192, .f32⟩
  | .local _ .vmem, ⟨4, _⟩ => ⟨S1x64x500, .f32⟩
  | .local _ .vmem, ⟨5, _⟩ => ⟨S1x64x500, .f32⟩
  | .local _ .vmem, ⟨6, _⟩ => ⟨S1x64x1, .f32⟩
  | .local _ .vmem, ⟨7, _⟩ => ⟨S1x64x1, .f32⟩
  | .local _ .vmem, ⟨8, _⟩ => ⟨S1x1x500, .f32⟩
  | .local _ .vmem, ⟨9, _⟩ => ⟨S1x1x500, .f32⟩
  | .local _ .vmem, ⟨10, _⟩ => ⟨S64x500, .f32⟩
  | .local _ .vmem, ⟨11, _⟩ => ⟨S64x1, .f32⟩
  | .local _ .vmem, ⟨12, _⟩ => ⟨S1x500, .f32⟩
  | _, _ => ⟨S64x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_cst_0 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 4], ![false, false]⟩

def k0_cond2 (i : grid0.Coords) : BitVec 1 :=
  let arg1 : BitVec 32 := BitVec.ofNat 32 (i 1).val
  let c3_i32 : BitVec 32 := 3#32
  let v30 : BitVec 1 := Scalar.cmpi .eq arg1 c3_i32
  let v31 : BitVec 32 := Scalar.extui v30
  let c0_i32_19 : BitVec 32 := 0#32
  let v32 : BitVec 1 := Scalar.cmpi .ne v31 c0_i32_19
  v32

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![c0_i32.toNat, v1.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![c0_i32.toNat, v1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S64x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S500x8192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x64x500 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x64x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x500 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  shapeCasts_S64x256x256_S64x65536 : S64x256x256.ShapeCasts S64x65536
  inb_S64x500_S64x500_0_0 : ∀ a, (![0, 0] : Fin 2 → Nat) a + S64x500.size a ≤ S64x500.size a
  h_S64x500 : 0 < S64x500.numel
  shapeCasts_S64x500_S64x500 : S64x500.ShapeCasts S64x500
  inb_S64x1_S64x1_0_0 : ∀ a, (![0, 0] : Fin 2 → Nat) a + S64x1.size a ≤ S64x1.size a
  h_S64x1 : 0 < S64x1.numel
  shapeCasts_S64x1_S64x1 : S64x1.ShapeCasts S64x1
  inb_S1x500_S1x500_0_0 : ∀ a, (![0, 0] : Fin 2 → Nat) a + S1x500.size a ≤ S1x500.size a
  h_S1x500 : 0 < S1x500.numel
  shapeCasts_S1x500_S1x500 : S1x500.ShapeCasts S1x500
  inb_S64x8192_S64x8192_0_0 : ∀ a, (![0, 0] : Fin 2 → Nat) a + S64x8192.size a ≤ S64x8192.size a
  h_S64x8192 : 0 < S64x8192.numel
  shapeCasts_S64x8192_S64x8192 : S64x8192.ShapeCasts S64x8192
  inb_S500x8192_S500x8192_0_0 : ∀ a, (![0, 0] : Fin 2 → Nat) a + S500x8192.size a ≤ S500x8192.size a
  h_S500x8192 : 0 < S500x8192.numel
  bitsLt_bf16_f32 : FTy.bits .bf16 < FTy.bits .f32
  reduces_S64x8192_S64 : S64x8192.Reduces [1] S64
  shapeCasts_S64_S64x1 : S64.ShapeCasts S64x1
  inb_S1x64x500_S1x64x500_0_0_0 : ∀ a, (![0, 0, 0] : Fin 3 → Nat) a + S1x64x500.size a ≤ S1x64x500.size a
  h_S1x64x500 : 0 < S1x64x500.numel
  shapeCasts_S1x64x500_S64x500 : S1x64x500.ShapeCasts S64x500
  shapeCasts_S64x500_S1x64x500 : S64x500.ShapeCasts S1x64x500
  inb_S1x64x1_S1x64x1_0_0_0 : ∀ a, (![0, 0, 0] : Fin 3 → Nat) a + S1x64x1.size a ≤ S1x64x1.size a
  h_S1x64x1 : 0 < S1x64x1.numel
  shapeCasts_S1x64x1_S64x1 : S1x64x1.ShapeCasts S64x1
  shapeCasts_S64x1_S1x64x1 : S64x1.ShapeCasts S1x64x1
  inb_S1x1x500_S1x1x500_0_0_0 : ∀ a, (![0, 0, 0] : Fin 3 → Nat) a + S1x1x500.size a ≤ S1x1x500.size a
  h_S1x1x500 : 0 < S1x1x500.numel
  shapeCasts_S1x1x500_S1x500 : S1x1x500.ShapeCasts S1x500
  shapeCasts_S1x500_S1x1x500 : S1x500.ShapeCasts S1x1x500
  slices_S2x64x500_S1x64x500_0_0_0 : S2x64x500.Slices ![0, 0, 0] S1x64x500
  slices_S2x64x500_S1x64x500_1_0_0 : S2x64x500.Slices ![1, 0, 0] S1x64x500
  slices_S2x64x1_S1x64x1_0_0_0 : S2x64x1.Slices ![0, 0, 0] S1x64x1
  slices_S2x64x1_S1x64x1_1_0_0 : S2x64x1.Slices ![1, 0, 0] S1x64x1
  slices_S2x1x500_S1x1x500_0_0_0 : S2x1x500.Slices ![0, 0, 0] S1x1x500
  slices_S2x1x500_S1x1x500_1_0_0 : S2x1x500.Slices ![1, 0, 0] S1x1x500
  bcast_S_S64x500 : S_.BroadcastsInDim S64x500 (![] : Fin 0 → Fin S64x500.rank)
  bcast_S64x1_S64x500_0_1 : S64x1.BroadcastsInDim S64x500 (![0, 1] : Fin 2 → Fin S64x500.rank)
  bcast_S1x500_S64x500_0_1 : S1x500.BroadcastsInDim S64x500 (![0, 1] : Fin 2 → Fin S64x500.rank)
  transposes_S8x500_S500x8_1_0 : S8x500.Transposes [1, 0] S500x8
  bcast_S8_S1x8_1 : S8.BroadcastsInDim S1x8 (![1] : Fin 1 → Fin S1x8.rank)
  bcast_S1x8_S64x8_0_1 : S1x8.BroadcastsInDim S64x8 (![0, 1] : Fin 2 → Fin S64x8.rank)
  dot_S64x8192_S500x8192_S64x500_1_1_0_0_n_n_wf : DotDims.WF S64x8192 S500x8192 S64x500 [1] [1] [0] [0] [] []
  dot_S1x8192_S500x8192_S1x500_1_1_0_0_n_n_wf : DotDims.WF S1x8192 S500x8192 S1x500 [1] [1] [0] [0] [] []
  dot_S64x500_S500x8_S64x8_1_0_0_1_n_n_wf : DotDims.WF S64x500 S500x8 S64x8 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x8192.size a ≤ S64x65536.size a
  hwx0_0 : ∀ i : grid0.Coords, EltTy.bits .f32 = 32 ∨ (Rect.block (s := S64x65536) S64x8192.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S500x8192.size a ≤ S500x65536.size a
  hwx0_1 : ∀ i : grid0.Coords, EltTy.bits .f32 = 32 ∨ (Rect.block (s := S500x65536) S500x8192.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x64x500.size a ≤ S2x64x500.size a
  hwx0_2 : ∀ i : grid0.Coords, EltTy.bits .f32 = 32 ∨ (Rect.block (s := S2x64x500) S1x64x500.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x64x1.size a ≤ S2x64x1.size a
  hwx0_3 : ∀ i : grid0.Coords, EltTy.bits .f32 = 32 ∨ (Rect.block (s := S2x64x1) S1x64x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x500.size a ≤ S2x1x500.size a
  hwx0_4 : ∀ i : grid0.Coords, EltTy.bits .f32 = 32 ∨ (Rect.block (s := S2x1x500) S1x1x500.size (cc0_transform_4 i) (hinb0_4 i)).WholeWords (EltTy.packing .f32)

variable [Facts₀]

def dot_S64x8192_S500x8192_S64x500_1_1_0_0_n_n : DotDims S64x8192 S500x8192 S64x500 where
  lhsContracting := [1]
  rhsContracting := [1]
  lhsNonContracting := [0]
  rhsNonContracting := [0]
  lhsBatch := []
  rhsBatch := []
  wf := dot_S64x8192_S500x8192_S64x500_1_1_0_0_n_n_wf
def dot_S1x8192_S500x8192_S1x500_1_1_0_0_n_n : DotDims S1x8192 S500x8192 S1x500 where
  lhsContracting := [1]
  rhsContracting := [1]
  lhsNonContracting := [0]
  rhsNonContracting := [0]
  lhsBatch := []
  rhsBatch := []
  wf := dot_S1x8192_S500x8192_S1x500_1_1_0_0_n_n_wf
def dot_S64x500_S500x8_S64x8_1_0_0_1_n_n : DotDims S64x500 S500x8 S64x8 where
  lhsContracting := [1]
  rhsContracting := [0]
  lhsNonContracting := [0]
  rhsNonContracting := [1]
  lhsBatch := []
  rhsBatch := []
  wf := dot_S64x500_S500x8_S64x8_1_0_0_1_n_n_wf

abbrev win0_0 : Pipeline.Window sig grid0 :=
  Pipeline.Window.ofSpec (Memref.whole main_v0) S64x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S500x8192.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1_0) S1x64x500.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1_1) S1x64x1.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1_2) S1x1x500.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun i => !(k0_cond2 i == 1#1) | 3 => fun i => !(k0_cond2 i == 1#1) | 4 => fun i => !(k0_cond2 i == 1#1) | ⟨_ + 5, h⟩ => absurd h (Nat.not_lt.2 (Nat.le_add_left _ _))

class Facts : Prop extends Facts₀ where

variable [Facts]
-- ==== ReferenceIdeal.lean ====
abbrev S64x256x256 : Shape := ⟨3, ![64, 256, 256]⟩
abbrev S500x65536 : Shape := ⟨2, ![500, 65536]⟩
abbrev S8x500 : Shape := ⟨2, ![8, 500]⟩
abbrev S8 : Shape := ⟨1, ![8]⟩
abbrev S64x65536 : Shape := ⟨2, ![64, 65536]⟩
abbrev S_ : Shape := ⟨0, ![]⟩
abbrev S64 : Shape := ⟨1, ![64]⟩
abbrev S64x1 : Shape := ⟨2, ![64, 1]⟩
abbrev S500 : Shape := ⟨1, ![500]⟩
abbrev S65536x500 : Shape := ⟨2, ![65536, 500]⟩
abbrev S64x500 : Shape := ⟨2, ![64, 500]⟩
abbrev S1x500 : Shape := ⟨2, ![1, 500]⟩
abbrev S500x8 : Shape := ⟨2, ![500, 8]⟩
abbrev S64x8 : Shape := ⟨2, ![64, 8]⟩
abbrev S1x8 : Shape := ⟨2, ![1, 8]⟩

abbrev nBuf : Space → Nat
  | .hbm => 31
  | .vmem => 0
  | .smem => 0
  | _ => 0

abbrev bufTy : (tb : Table) → Fin (tcTables nBuf tb) → BufTy
  | .hbm, ⟨0, _⟩ => ⟨S64x256x256, .f32⟩
  | .hbm, ⟨1, _⟩ => ⟨S500x65536, .f32⟩
  | .hbm, ⟨2, _⟩ => ⟨S8x500, .f32⟩
  | .hbm, ⟨3, _⟩ => ⟨S8, .f32⟩
  | .hbm, ⟨4, _⟩ => ⟨S64x65536, .f32⟩
  | .hbm, ⟨5, _⟩ => ⟨S64x65536, .f32⟩
  | .hbm, ⟨6, _⟩ => ⟨S_, .f32⟩
  | .hbm, ⟨7, _⟩ => ⟨S64, .f32⟩
  | .hbm, ⟨8, _⟩ => ⟨S64x1, .f32⟩
  | .hbm, ⟨9, _⟩ => ⟨S500x65536, .f32⟩
  | .hbm, ⟨10, _⟩ => ⟨S_, .f32⟩
  | .hbm, ⟨11, _⟩ => ⟨S500, .f32⟩
  | .hbm, ⟨12, _⟩ => ⟨S65536x500, .f32⟩
  | .hbm, ⟨13, _⟩ => ⟨S64x500, .f32⟩
  | .hbm, ⟨14, _⟩ => ⟨S_, .f32⟩
  | .hbm, ⟨15, _⟩ => ⟨S64x500, .f32⟩
  | .hbm, ⟨16, _⟩ => ⟨S64x500, .f32⟩
  | .hbm, ⟨17, _⟩ => ⟨S64x500, .f32⟩
  | .hbm, ⟨18, _⟩ => ⟨S64x500, .f32⟩
  | .hbm, ⟨19, _⟩ => ⟨S1x500, .f32⟩
  | .hbm, ⟨20, _⟩ => ⟨S64x500, .f32⟩
  | .hbm, ⟨21, _⟩ => ⟨S64x500, .f32⟩
  | .hbm, ⟨22, _⟩ => ⟨S_, .f32⟩
  | .hbm, ⟨23, _⟩ => ⟨S64x500, .f32⟩
  | .hbm, ⟨24, _⟩ => ⟨S64x500, .f32⟩
  | .hbm, ⟨25, _⟩ => ⟨S64x500, .f32⟩
  | .hbm, ⟨26, _⟩ => ⟨S500x8, .f32⟩
  | .hbm, ⟨27, _⟩ => ⟨S64x8, .f32⟩
  | .hbm, ⟨28, _⟩ => ⟨S1x8, .f32⟩
  | .hbm, ⟨29, _⟩ => ⟨S64x8, .f32⟩
  | .hbm, ⟨30, _⟩ => ⟨S64x8, .f32⟩
  | _, _ => ⟨S64x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩

abbrev nD : Nat := 1
abbrev τ : Topo := Topo.v7x

variable {F : FTy → Type} [FloatOps F]

class Facts₀ : Prop where
  shapeCasts_S64x256x256_S64x65536 : S64x256x256.ShapeCasts S64x65536
  reducesTo_S64x65536_S64_d1 : S64x65536.ReducesTo [1] S64
  h_S_ : 0 < S_.numel
  bcast_S64_S64x1_0 : S64.BroadcastsInDim S64x1 (![0] : Fin 1 → Fin S64x1.rank)
  reducesTo_S500x65536_S500_d1 : S500x65536.ReducesTo [1] S500
  transposes_S500x65536_S65536x500_1_0 : S500x65536.Transposes [1, 0] S65536x500
  bcast_S_S64x500 : S_.BroadcastsInDim S64x500 (![] : Fin 0 → Fin S64x500.rank)
  bcast_S64x1_S64x500_0_1 : S64x1.BroadcastsInDim S64x500 (![0, 1] : Fin 2 → Fin S64x500.rank)
  bcast_S500_S1x500_1 : S500.BroadcastsInDim S1x500 (![1] : Fin 1 → Fin S1x500.rank)
  bcast_S1x500_S64x500_0_1 : S1x500.BroadcastsInDim S64x500 (![0, 1] : Fin 2 → Fin S64x500.rank)
  transposes_S8x500_S500x8_1_0 : S8x500.Transposes [1, 0] S500x8
  bcast_S8_S1x8_1 : S8.BroadcastsInDim S1x8 (![1] : Fin 1 → Fin S1x8.rank)
  bcast_S1x8_S64x8_0_1 : S1x8.BroadcastsInDim S64x8 (![0, 1] : Fin 2 → Fin S64x8.rank)
  dot_S64x65536_S65536x500_S64x500_1_0_0_1_n_n_wf : DotDims.WF S64x65536 S65536x500 S64x500 [1] [0] [0] [1] [] []
  dot_S64x500_S500x8_S64x8_1_0_0_1_n_n_wf : DotDims.WF S64x500 S500x8 S64x8 [1] [0] [0] [1] [] []

variable [Facts₀]

def dot_S64x65536_S65536x500_S64x500_1_0_0_1_n_n : DotDims S64x65536 S65536x500 S64x500 where
  lhsContracting := [1]
  rhsContracting := [0]
  lhsNonContracting := [0]
  rhsNonContracting := [1]
  lhsBatch := []
  rhsBatch := []
  wf := dot_S64x65536_S65536x500_S64x500_1_0_0_1_n_n_wf
def dot_S64x500_S500x8_S64x8_1_0_0_1_n_n : DotDims S64x500 S500x8 S64x8 where
  lhsContracting := [1]
  rhsContracting := [0]
  lhsNonContracting := [0]
  rhsNonContracting := [1]
  lhsBatch := []
  rhsBatch := []
  wf := dot_S64x500_S500x8_S64x8_1_0_0_1_n_n_wf

class Facts : Prop extends Facts₀ where

variable [Facts]
-- ==== Proof.Pieces.lean ====
import proofs.«176438_j9062380994856_2_alg».proof.Proof.Gen.KernelIdeal.Frame
/-
  What one run of the kernel body leaves behind, read back as values. The body keeps three running sums in scratch
  memory: the cross products x·cᵀ, the squared norms of the rows of x, the squared norms of the centres. At the first
  step of a half it stores zeros and then adds this step's contribution; at every later step it adds this step's
  contribution to what the step before left; at the last step of a half it also copies the three sums out.
  Each statement below says: the array a case leaves is that case's payload of the input blocks and of what the
  step before left — nothing else.
-/
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Acc

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-! ## The first step of a half: zeros, then this step's contribution -/

/-- At the first step the cross-product accumulator ends at this step's contribution added to the zero block. -/
theorem first_0 (c : Dev nD) (i : grid0.Coords) (arg2 : Memref sig .tc .vmem S64x8192 .f32) (harg2 : arg2.IsWhole) (arg3 : Memref sig .tc .vmem S500x8192 .f32) (harg3 : arg3.IsWhole) (arg4 : Memref sig .tc .vmem S1x64x500 .f32) (harg4 : arg4.IsWhole) (arg5 : Memref sig .tc .vmem S1x64x1 .f32) (harg5 : arg5.IsWhole) (arg6 : Memref sig .tc .vmem S1x1x500 .f32) (harg6 : arg6.IsWhole) (arg7 : Memref sig .tc .vmem S64x500 .f32) (harg7 : arg7.IsWhole) (arg8 : Memref sig .tc .vmem S64x1 .f32) (harg8 : arg8.IsWhole) (arg9 : Memref sig .tc .vmem S1x500 .f32) (harg9 : arg9.IsWhole) (hc0 : cond0_0 i) (hc1 : ¬cond0_1 i) (x0 : Vec F S64x8192 .f32) (x1 : Vec F S500x8192 .f32) :
    sout0_A_0 c i arg2 harg2 arg3 harg3 arg4 harg4 arg5 harg5 arg6 harg6 arg7 harg7 arg8 harg8 arg9 harg9 hc0 hc1 x0 x1 = k0_pay8 x0 x1 (k0_pay4 (F := F)) := by
  unfold sout0_A_0
  rw [View.read_writes_eq_canon _ _ _ (scover0_A_0 c i arg2 harg2 arg3 harg3 arg4 harg4 arg5 harg5 arg6 harg6 arg7 harg7 arg8 harg8 arg9 harg9 hc0 hc1 x0 x1)]
  unfold kernelRun0_A
  dsimp only
  sl_unfold_words
  rw [View.canon_cons_unit_zero (S := S64x500) hz2, View.readCov_unit_zero (S := S64x500) _ hz2]
  simp only [View.readAt_eq_ld, harg2.read_unread, harg3.read_unread, harg7.read_unread, harg8.read_unread, harg9.read_unread, View.ld_unit_zero (S := S64x8192) hz2, View.ld_unit_zero (S := S500x8192) hz2, View.ld_unit_zero (S := S64x500) hz2, View.ld_unit_zero (S := S64x1) hz2, View.ld_unit_zero (S := S1x500) hz2]

/-- At the first step the accumulator of the squared norms of x's rows ends at this step's contribution added to the zero block. -/
theorem first_1 (c : Dev nD) (i : grid0.Coords) (arg2 : Memref sig .tc .vmem S64x8192 .f32) (harg2 : arg2.IsWhole) (arg3 : Memref sig .tc .vmem S500x8192 .f32) (harg3 : arg3.IsWhole) (arg4 : Memref sig .tc .vmem S1x64x500 .f32) (harg4 : arg4.IsWhole) (arg5 : Memref sig .tc .vmem S1x64x1 .f32) (harg5 : arg5.IsWhole) (arg6 : Memref sig .tc .vmem S1x1x500 .f32) (harg6 : arg6.IsWhole) (arg7 : Memref sig .tc .vmem S64x500 .f32) (harg7 : arg7.IsWhole) (arg8 : Memref sig .tc .vmem S64x1 .f32) (harg8 : arg8.IsWhole) (arg9 : Memref sig .tc .vmem S1x500 .f32) (harg9 : arg9.IsWhole) (hc0 : cond0_0 i) (hc1 : ¬cond0_1 i) (x0 : Vec F S64x8192 .f32) (x1 : Vec F S500x8192 .f32) :
    sout0_A_1 c i arg2 harg2 arg3 harg3 arg4 harg4 arg5 harg5 arg6 harg6 arg7 harg7 arg8 harg8 arg9 harg9 hc0 hc1 x0 x1 = k0_pay9 x0 (k0_pay5 (F := F)) := by
  unfold sout0_A_1
  rw [View.read_writes_eq_canon _ _ _ (scover0_A_1 c i arg2 harg2 arg3 harg3 arg4 harg4 arg5 harg5 arg6 harg6 arg7 harg7 arg8 harg8 arg9 harg9 hc0 hc1 x0 x1)]
  unfold kernelRun0_A
  dsimp only
  sl_unfold_words
  rw [View.canon_cons_unit_zero (S := S64x1) hz2, View.readCov_unit_zero (S := S64x1) _ hz2]
  simp only [View.readAt_eq_ld, harg2.read_unread, harg3.read_unread, harg7.read_unread, harg8.read_unread, harg9.read_unread, View.ld_unit_zero (S := S64x8192) hz2, View.ld_unit_zero (S := S500x8192) hz2, View.ld_unit_zero (S := S64x500) hz2, View.ld_unit_zero (S := S64x1) hz2, View.ld_unit_zero (S := S1x500) hz2]

/-- At the first step the accumulator of the squared norms of the centres ends at this step's contribution added to the zero block. -/
theorem first_2 (c : Dev nD) (i : grid0.Coords) (arg2 : Memref sig .tc .vmem S64x8192 .f32) (harg2 : arg2.IsWhole) (arg3 : Memref sig .tc .vmem S500x8192 .f32) (harg3 : arg3.IsWhole) (arg4 : Memref sig .tc .vmem S1x64x500 .f32) (harg4 : arg4.IsWhole) (arg5 : Memref sig .tc .vmem S1x64x1 .f32) (harg5 : arg5.IsWhole) (arg6 : Memref sig .tc .vmem S1x1x500 .f32) (harg6 : arg6.IsWhole) (arg7 : Memref sig .tc .vmem S64x500 .f32) (harg7 : arg7.IsWhole) (arg8 : Memref sig .tc .vmem S64x1 .f32) (harg8 : arg8.IsWhole) (arg9 : Memref sig .tc .vmem S1x500 .f32) (harg9 : arg9.IsWhole) (hc0 : cond0_0 i) (hc1 : ¬cond0_1 i) (x0 : Vec F S64x8192 .f32) (x1 : Vec F S500x8192 .f32) :
    sout0_A_2 c i arg2 harg2 arg3 harg3 arg4 harg4 arg5 harg5 arg6 harg6 arg7 harg7 arg8 harg8 arg9 harg9 hc0 hc1 x0 x1 = k0_pay10 x1 (k0_pay6 (F := F)) := by
  unfold sout0_A_2
  rw [View.read_writes_eq_canon _ _ _ (scover0_A_2 c i arg2 harg2 arg3 harg3 arg4 harg4 arg5 harg5 arg6 harg6 arg7 harg7 arg8 harg8 arg9 harg9 hc0 hc1 x0 x1)]
  unfold kernelRun0_A
  dsimp only
  sl_unfold_words
  rw [View.canon_cons_unit_zero (S := S1x500) hz2, View.readCov_unit_zero (S := S1x500) _ hz2]
  simp only [View.readAt_eq_ld, harg2.read_unread, harg3.read_unread, harg7.read_unread, harg8.read_unread, harg9.read_unread, View.ld_unit_zero (S := S64x8192) hz2, View.ld_unit_zero (S := S500x8192) hz2, View.ld_unit_zero (S := S64x500) hz2, View.ld_unit_zero (S := S64x1) hz2, View.ld_unit_zero (S := S1x500) hz2]

/-! ## A middle step: this step's contribution added to what the step before left -/

/-- At a middle step the cross-product accumulator ends at this step's contribution added to what it held. -/
theorem middle_0 (c : Dev nD) (i : grid0.Coords) (arg2 : Memref sig .tc .vmem S64x8192 .f32) (harg2 : arg2.IsWhole) (arg3 : Memref sig .tc .vmem S500x8192 .f32) (harg3 : arg3.IsWhole) (arg4 : Memref sig .tc .vmem S1x64x500 .f32) (harg4 : arg4.IsWhole) (arg5 : Memref sig .tc .vmem S1x64x1 .f32) (harg5 : arg5.IsWhole) (arg6 : Memref sig .tc .vmem S1x1x500 .f32) (harg6 : arg6.IsWhole) (arg7 : Memref sig .tc .vmem S64x500 .f32) (harg7 : arg7.IsWhole) (arg8 : Memref sig .tc .vmem S64x1 .f32) (harg8 : arg8.IsWhole) (arg9 : Memref sig .tc .vmem S1x500 .f32) (harg9 : arg9.IsWhole) (hc0 : ¬cond0_0 i) (hc1 : ¬cond0_1 i) (x0 : Vec F S64x8192 .f32) (x1 : Vec F S500x8192 .f32) (xs0 : Vec F S64x500 .f32) (xs1 : Vec F S64x1 .f32) (xs2 : Vec F S1x500 .f32) :
    sout0_B_0 c i arg2 harg2 arg3 harg3 arg4 harg4 arg5 harg5 arg6 harg6 arg7 harg7 arg8 harg8 arg9 harg9 hc0 hc1 x0 x1 xs0 xs1 xs2 = k0_pay8 x0 x1 xs0 := by
  unfold sout0_B_0
  rw [View.read_writes_eq_canon _ _ _ (scover0_B_0 c i arg2 harg2 arg3 harg3 arg4 harg4 arg5 harg5 arg6 harg6 arg7 harg7 arg8 harg8 arg9 harg9 hc0 hc1 x0 x1 xs0 xs1 xs2)]
  unfold kernelRun0_B
  dsimp only
  rw [View.canon_unit_zero hz2]
  simp only [View.readAt_eq_ld, harg2.read_unread, harg3.read_unread, harg7.read_unread, harg8.read_unread, harg9.read_unread, View.ld_unit_zero (S := S64x8192) hz2, View.ld_unit_zero (S := S500x8192) hz2, View.ld_unit_zero (S := S64x500) hz2, View.ld_unit_zero (S := S64x1) hz2, View.ld_unit_zero (S := S1x500) hz2]

/-- At a middle step the accumulator of the squared norms of x's rows ends at this step's contribution added to what it held. -/
theorem middle_1 (c : Dev nD) (i : grid0.Coords) (arg2 : Memref sig .tc .vmem S64x8192 .f32) (harg2 : arg2.IsWhole) (arg3 : Memref sig .tc .vmem S500x8192 .f32) (harg3 : arg3.IsWhole) (arg4 : Memref sig .tc .vmem S1x64x500 .f32) (harg4 : arg4.IsWhole) (arg5 : Memref sig .tc .vmem S1x64x1 .f32) (harg5 : arg5.IsWhole) (arg6 : Memref sig .tc .vmem S1x1x500 .f32) (harg6 : arg6.IsWhole) (arg7 : Memref sig .tc .vmem S64x500 .f32) (harg7 : arg7.IsWhole) (arg8 : Memref sig .tc .vmem S64x1 .f32) (harg8 : arg8.IsWhole) (arg9 : Memref sig .tc .vmem S1x500 .f32) (harg9 : arg9.IsWhole) (hc0 : ¬cond0_0 i) (hc1 : ¬cond0_1 i) (x0 : Vec F S64x8192 .f32) (x1 : Vec F S500x8192 .f32) (xs0 : Vec F S64x500 .f32) (xs1 : Vec F S64x1 .f32) (xs2 : Vec F S1x500 .f32) :
    sout0_B_1 c i arg2 harg2 arg3 harg3 arg4 harg4 arg5 harg5 arg6 harg6 arg7 harg7 arg8 harg8 arg9 harg9 hc0 hc1 x0 x1 xs0 xs1 xs2 = k0_pay9 x0 xs1 := by
  unfold sout0_B_1
  rw [View.read_writes_eq_canon _ _ _ (scover0_B_1 c i arg2 harg2 arg3 harg3 arg4 harg4 arg5 harg5 arg6 harg6 arg7 harg7 arg8 harg8 arg9 harg9 hc0 hc1 x0 x1 xs0 xs1 xs2)]
  unfold kernelRun0_B
  dsimp only
  rw [View.canon_unit_zero hz2]
  simp only [View.readAt_eq_ld, harg2.read_unread, harg3.read_unread, harg7.read_unread, harg8.read_unread, harg9.read_unread, View.ld_unit_zero (S := S64x8192) hz2, View.ld_unit_zero (S := S500x8192) hz2, View.ld_unit_zero (S := S64x500) hz2, View.ld_unit_zero (S := S64x1) hz2, View.ld_unit_zero (S := S1x500) hz2]

/-- At a middle step the accumulator of the squared norms of the centres ends at this step's contribution added to what it held. -/
theorem middle_2 (c : Dev nD) (i : grid0.Coords) (arg2 : Memref sig .tc .vmem S64x8192 .f32) (harg2 : arg2.IsWhole) (arg3 : Memref sig .tc .vmem S500x8192 .f32) (harg3 : arg3.IsWhole) (arg4 : Memref sig .tc .vmem S1x64x500 .f32) (harg4 : arg4.IsWhole) (arg5 : Memref sig .tc .vmem S1x64x1 .f32) (harg5 : arg5.IsWhole) (arg6 : Memref sig .tc .vmem S1x1x500 .f32) (harg6 : arg6.IsWhole) (arg7 : Memref sig .tc .vmem S64x500 .f32) (harg7 : arg7.IsWhole) (arg8 : Memref sig .tc .vmem S64x1 .f32) (harg8 : arg8.IsWhole) (arg9 : Memref sig .tc .vmem S1x500 .f32) (harg9 : arg9.IsWhole) (hc0 : ¬cond0_0 i) (hc1 : ¬cond0_1 i) (x0 : Vec F S64x8192 .f32) (x1 : Vec F S500x8192 .f32) (xs0 : Vec F S64x500 .f32) (xs1 : Vec F S64x1 .f32) (xs2 : Vec F S1x500 .f32) :
    sout0_B_2 c i arg2 harg2 arg3 harg3 arg4 harg4 arg5 harg5 arg6 harg6 arg7 harg7 arg8 harg8 arg9 harg9 hc0 hc1 x0 x1 xs0 xs1 xs2 = k0_pay10 x1 xs2 := by
  unfold sout0_B_2
  rw [View.read_writes_eq_canon _ _ _ (scover0_B_2 c i arg2 harg2 arg3 harg3 arg4 harg4 arg5 harg5 arg6 harg6 arg7 harg7 arg8 harg8 arg9 harg9 hc0 hc1 x0 x1 xs0 xs1 xs2)]
  unfold kernelRun0_B
  dsimp only
  rw [View.canon_unit_zero hz2]
  simp only [View.readAt_eq_ld, harg2.read_unread, harg3.read_unread, harg7.read_unread, harg8.read_unread, harg9.read_unread, View.ld_unit_zero (S := S64x8192) hz2, View.ld_unit_zero (S := S500x8192) hz2, View.ld_unit_zero (S := S64x500) hz2, View.ld_unit_zero (S := S64x1) hz2, View.ld_unit_zero (S := S1x500) hz2]

/-! ## The last step of a half: the same addition, and the three sums copied out -/

/-- At the last step the cross-product accumulator ends at this step's contribution added to what it held. -/
theorem last_0 (c : Dev nD) (i : grid0.Coords) (arg2 : Memref sig .tc .vmem S64x8192 .f32) (harg2 : arg2.IsWhole) (arg3 : Memref sig .tc .vmem S500x8192 .f32) (harg3 : arg3.IsWhole) (arg4 : Memref sig .tc .vmem S1x64x500 .f32) (harg4 : arg4.IsWhole) (arg5 : Memref sig .tc .vmem S1x64x1 .f32) (harg5 : arg5.IsWhole) (arg6 : Memref sig .tc .vmem S1x1x500 .f32) (harg6 : arg6.IsWhole) (arg7 : Memref sig .tc .vmem S64x500 .f32) (harg7 : arg7.IsWhole) (arg8 : Memref sig .tc .vmem S64x1 .f32) (harg8 : arg8.IsWhole) (arg9 : Memref sig .tc .vmem S1x500 .f32) (harg9 : arg9.IsWhole) (hc0 : ¬cond0_0 i) (hc1 : cond0_1 i) (x0 : Vec F S64x8192 .f32) (x1 : Vec F S500x8192 .f32) (xs0 : Vec F S64x500 .f32) (xs1 : Vec F S64x1 .f32) (xs2 : Vec F S1x500 .f32) :
    sout0_C_0 c i arg2 harg2 arg3 harg3 arg4 harg4 arg5 harg5 arg6 harg6 arg7 harg7 arg8 harg8 arg9 harg9 hc0 hc1 x0 x1 xs0 xs1 xs2 = k0_pay8 x0 x1 xs0 := by
  unfold sout0_C_0
  rw [View.read_writes_eq_canon _ _ _ (scover0_C_0 c i arg2 harg2 arg3 harg3 arg4 harg4 arg5 harg5 arg6 harg6 arg7 harg7 arg8 harg8 arg9 harg9 hc0 hc1 x0 x1 xs0 xs1 xs2)]
  unfold kernelRun0_C
  dsimp only
  sl_unfold_words
  rw [View.canon_unit_zero hz2]
  simp only [View.readAt_eq_ld, harg2.read_unread, harg3.read_unread, harg7.read_unread, harg8.read_unread, harg9.read_unread, View.ld_unit_zero (S := S64x8192) hz2, View.ld_unit_zero (S := S500x8192) hz2, View.ld_unit_zero (S := S64x500) hz2, View.ld_unit_zero (S := S64x1) hz2, View.ld_unit_zero (S := S1x500) hz2]

/-- At the last step the accumulator of the squared norms of x's rows ends at this step's contribution added to what it held. -/
theorem last_1 (c : Dev nD) (i : grid0.Coords) (arg2 : Memref sig .tc .vmem S64x8192 .f32) (harg2 : arg2.IsWhole) (arg3 : Memref sig .tc .vmem S500x8192 .f32) (harg3 : arg3.IsWhole) (arg4 : Memref sig .tc .vmem S1x64x500 .f32) (harg4 : arg4.IsWhole) (arg5 : Memref sig .tc .vmem S1x64x1 .f32) (harg5 : arg5.IsWhole) (arg6 : Memref sig .tc .vmem S1x1x500 .f32) (harg6 : arg6.IsWhole) (arg7 : Memref sig .tc .vmem S64x500 .f32) (harg7 : arg7.IsWhole) (arg8 : Memref sig .tc .vmem S64x1 .f32) (harg8 : arg8.IsWhole) (arg9 : Memref sig .tc .vmem S1x500 .f32) (harg9 : arg9.IsWhole) (hc0 : ¬cond0_0 i) (hc1 : cond0_1 i) (x0 : Vec F S64x8192 .f32) (x1 : Vec F S500x8192 .f32) (xs0 : Vec F S64x500 .f32) (xs1 : Vec F S64x1 .f32) (xs2 : Vec F S1x500 .f32) :
    sout0_C_1 c i arg2 harg2 arg3 harg3 arg4 harg4 arg5 harg5 arg6 harg6 arg7 harg7 arg8 harg8 arg9 harg9 hc0 hc1 x0 x1 xs0 xs1 xs2 = k0_pay9 x0 xs1 := by
  unfold sout0_C_1
  rw [View.read_writes_eq_canon _ _ _ (scover0_C_1 c i arg2 harg2 arg3 harg3 arg4 harg4 arg5 harg5 arg6 harg6 arg7 harg7 arg8 harg8 arg9 harg9 hc0 hc1 x0 x1 xs0 xs1 xs2)]
  unfold kernelRun0_C
  dsimp only
  sl_unfold_words
  rw [View.canon_unit_zero hz2]
  simp only [View.readAt_eq_ld, harg2.read_unread, harg3.read_unread, harg7.read_unread, harg8.read_unread, harg9.read_unread, View.ld_unit_zero (S := S64x8192) hz2, View.ld_unit_zero (S := S500x8192) hz2, View.ld_unit_zero (S := S64x500) hz2, View.ld_unit_zero (S := S64x1) hz2, View.ld_unit_zero (S := S1x500) hz2]

/-- At the last step the accumulator of the squared norms of the centres ends at this step's contribution added to what it held. -/
theorem last_2 (c : Dev nD) (i : grid0.Coords) (arg2 : Memref sig .tc .vmem S64x8192 .f32) (harg2 : arg2.IsWhole) (arg3 : Memref sig .tc .vmem S500x8192 .f32) (harg3 : arg3.IsWhole) (arg4 : Memref sig .tc .vmem S1x64x500 .f32) (harg4 : arg4.IsWhole) (arg5 : Memref sig .tc .vmem S1x64x1 .f32) (harg5 : arg5.IsWhole) (arg6 : Memref sig .tc .vmem S1x1x500 .f32) (harg6 : arg6.IsWhole) (arg7 : Memref sig .tc .vmem S64x500 .f32) (harg7 : arg7.IsWhole) (arg8 : Memref sig .tc .vmem S64x1 .f32) (harg8 : arg8.IsWhole) (arg9 : Memref sig .tc .vmem S1x500 .f32) (harg9 : arg9.IsWhole) (hc0 : ¬cond0_0 i) (hc1 : cond0_1 i) (x0 : Vec F S64x8192 .f32) (x1 : Vec F S500x8192 .f32) (xs0 : Vec F S64x500 .f32) (xs1 : Vec F S64x1 .f32) (xs2 : Vec F S1x500 .f32) :
    sout0_C_2 c i arg2 harg2 arg3 harg3 arg4 harg4 arg5 harg5 arg6 harg6 arg7 harg7 arg8 harg8 arg9 harg9 hc0 hc1 x0 x1 xs0 xs1 xs2 = k0_pay10 x1 xs2 := by
  unfold sout0_C_2
  rw [View.read_writes_eq_canon _ _ _ (scover0_C_2 c i arg2 harg2 arg3 harg3 arg4 harg4 arg5 harg5 arg6 harg6 arg7 harg7 arg8 harg8 arg9 harg9 hc0 hc1 x0 x1 xs0 xs1 xs2)]
  unfold kernelRun0_C
  dsimp only
  sl_unfold_words
  rw [View.canon_unit_zero hz2]
  simp only [View.readAt_eq_ld, harg2.read_unread, harg3.read_unread, harg7.read_unread, harg8.read_unread, harg9.read_unread, View.ld_unit_zero (S := S64x8192) hz2, View.ld_unit_zero (S := S500x8192) hz2, View.ld_unit_zero (S := S64x500) hz2, View.ld_unit_zero (S := S64x1) hz2, View.ld_unit_zero (S := S1x500) hz2]

/-- At the last step output block 2 receives a copy of the cross-product accumulator, as just updated. -/
theorem copied_2 (c : Dev nD) (i : grid0.Coords) (arg2 : Memref sig .tc .vmem S64x8192 .f32) (harg2 : arg2.IsWhole) (arg3 : Memref sig .tc .vmem S500x8192 .f32) (harg3 : arg3.IsWhole) (arg4 : Memref sig .tc .vmem S1x64x500 .f32) (harg4 : arg4.IsWhole) (arg5 : Memref sig .tc .vmem S1x64x1 .f32) (harg5 : arg5.IsWhole) (arg6 : Memref sig .tc .vmem S1x1x500 .f32) (harg6 : arg6.IsWhole) (arg7 : Memref sig .tc .vmem S64x500 .f32) (harg7 : arg7.IsWhole) (arg8 : Memref sig .tc .vmem S64x1 .f32) (harg8 : arg8.IsWhole) (arg9 : Memref sig .tc .vmem S1x500 .f32) (harg9 : arg9.IsWhole) (hc0 : ¬cond0_0 i) (hc1 : cond0_1 i) (x0 : Vec F S64x8192 .f32) (x1 : Vec F S500x8192 .f32) (xs0 : Vec F S64x500 .f32) (xs1 : Vec F S64x1 .f32) (xs2 : Vec F S1x500 .f32) :
    out0_C_2 c i arg2 harg2 arg3 harg3 arg4 harg4 arg5 harg5 arg6 harg6 arg7 harg7 arg8 harg8 arg9 harg9 hc0 hc1 x0 x1 xs0 xs1 xs2 = k0_pay1 (k0_pay8 x0 x1 xs0) := by
  unfold out0_C_2
  rw [View.read_writes_eq_canon _ _ _ (cover0_C_2 c i arg2 harg2 arg3 harg3 arg4 harg4 arg5 harg5 arg6 harg6 arg7 harg7 arg8 harg8 arg9 harg9 hc0 hc1 x0 x1 xs0 xs1 xs2)]
  unfold kernelRun0_C
  dsimp only
  sl_unfold_words
  rw [View.canon_unit_zero hz3, View.readCov_unit_zero (S := S64x500) _ hz2]
  simp only [View.readAt_eq_ld, harg2.read_unread, harg3.read_unread, harg7.read_unread, harg8.read_unread, harg9.read_unread, View.ld_unit_zero (S := S64x8192) hz2, View.ld_unit_zero (S := S500x8192) hz2, View.ld_unit_zero (S := S64x500) hz2, View.ld_unit_zero (S := S64x1) hz2, View.ld_unit_zero (S := S1x500) hz2]

/-- At the last step output block 3 receives a copy of the accumulator of the squared norms of x's rows, as just updated. -/
theorem copied_3 (c : Dev nD) (i : grid0.Coords) (arg2 : Memref sig .tc .vmem S64x8192 .f32) (harg2 : arg2.IsWhole) (arg3 : Memref sig .tc .vmem S500x8192 .f32) (harg3 : arg3.IsWhole) (arg4 : Memref sig .tc .vmem S1x64x500 .f32) (harg4 : arg4.IsWhole) (arg5 : Memref sig .tc .vmem S1x64x1 .f32) (harg5 : arg5.IsWhole) (arg6 : Memref sig .tc .vmem S1x1x500 .f32) (harg6 : arg6.IsWhole) (arg7 : Memref sig .tc .vmem S64x500 .f32) (harg7 : arg7.IsWhole) (arg8 : Memref sig .tc .vmem S64x1 .f32) (harg8 : arg8.IsWhole) (arg9 : Memref sig .tc .vmem S1x500 .f32) (harg9 : arg9.IsWhole) (hc0 : ¬cond0_0 i) (hc1 : cond0_1 i) (x0 : Vec F S64x8192 .f32) (x1 : Vec F S500x8192 .f32) (xs0 : Vec F S64x500 .f32) (xs1 : Vec F S64x1 .f32) (xs2 : Vec F S1x500 .f32) :
    out0_C_3 c i arg2 harg2 arg3 harg3 arg4 harg4 arg5 harg5 arg6 harg6 arg7 harg7 arg8 harg8 arg9 harg9 hc0 hc1 x0 x1 xs0 xs1 xs2 = k0_pay2 (k0_pay9 x0 xs1) := by
  unfold out0_C_3
  rw [View.read_writes_eq_canon _ _ _ (cover0_C_3 c i arg2 harg2 arg3 harg3 arg4 harg4 arg5 harg5 arg6 harg6 arg7 harg7 arg8 harg8 arg9 harg9 hc0 hc1 x0 x1 xs0 xs1 xs2)]
  unfold kernelRun0_C
  dsimp only
  sl_unfold_words
  rw [View.canon_unit_zero hz3, View.readCov_unit_zero (S := S64x1) _ hz2]
  simp only [View.readAt_eq_ld, harg2.read_unread, harg3.read_unread, harg7.read_unread, harg8.read_unread, harg9.read_unread, View.ld_unit_zero (S := S64x8192) hz2, View.ld_unit_zero (S := S500x8192) hz2, View.ld_unit_zero (S := S64x500) hz2, View.ld_unit_zero (S := S64x1) hz2, View.ld_unit_zero (S := S1x500) hz2]

/-- At the last step output block 4 receives a copy of the accumulator of the squared norms of the centres, as just updated. -/
theorem copied_4 (c : Dev nD) (i : grid0.Coords) (arg2 : Memref sig .tc .vmem S64x8192 .f32) (harg2 : arg2.IsWhole) (arg3 : Memref sig .tc .vmem S500x8192 .f32) (harg3 : arg3.IsWhole) (arg4 : Memref sig .tc .vmem S1x64x500 .f32) (harg4 : arg4.IsWhole) (arg5 : Memref sig .tc .vmem S1x64x1 .f32) (harg5 : arg5.IsWhole) (arg6 : Memref sig .tc .vmem S1x1x500 .f32) (harg6 : arg6.IsWhole) (arg7 : Memref sig .tc .vmem S64x500 .f32) (harg7 : arg7.IsWhole) (arg8 : Memref sig .tc .vmem S64x1 .f32) (harg8 : arg8.IsWhole) (arg9 : Memref sig .tc .vmem S1x500 .f32) (harg9 : arg9.IsWhole) (hc0 : ¬cond0_0 i) (hc1 : cond0_1 i) (x0 : Vec F S64x8192 .f32) (x1 : Vec F S500x8192 .f32) (xs0 : Vec F S64x500 .f32) (xs1 : Vec F S64x1 .f32) (xs2 : Vec F S1x500 .f32) :
    out0_C_4 c i arg2 harg2 arg3 harg3 arg4 harg4 arg5 harg5 arg6 harg6 arg7 harg7 arg8 harg8 arg9 harg9 hc0 hc1 x0 x1 xs0 xs1 xs2 = k0_pay3 (k0_pay10 x1 xs2) := by
  unfold out0_C_4
  rw [View.read_writes_eq_canon _ _ _ (cover0_C_4 c i arg2 harg2 arg3 harg3 arg4 harg4 arg5 harg5 arg6 harg6 arg7 harg7 arg8 harg8 arg9 harg9 hc0 hc1 x0 x1 xs0 xs1 xs2)]
  unfold kernelRun0_C
  dsimp only
  sl_unfold_words
  rw [View.canon_unit_zero hz3, View.readCov_unit_zero (S := S1x500) _ hz2]
  simp only [View.readAt_eq_ld, harg2.read_unread, harg3.read_unread, harg7.read_unread, harg8.read_unread, harg9.read_unread, View.ld_unit_zero (S := S64x8192) hz2, View.ld_unit_zero (S := S500x8192) hz2, View.ld_unit_zero (S := S64x500) hz2, View.ld_unit_zero (S := S64x1) hz2, View.ld_unit_zero (S := S1x500) hz2]

end Cert.KernelIdeal.Acc

end
-- ==== Proof.Fold.lean ====
/-
  The three running sums over one half of the feature axis, as folds over the half's four steps. The grid has eight
  steps, numbered 4·h + k for the half h and the step k inside it. Each sum is reset at k = 0 (zero plus this step's
  contribution) and at k = 1, 2, 3 receives this step's contribution on top of what the step before left; at k = 3
  the body copies the three sums into the output blocks of half h. So after step 4·h + k a sum is the fold of the
  contributions of steps 4·h … 4·h + k, whatever the contributions are.
-/
import proofs.«176438_j9062380994856_2_alg».proof.Proof.Pieces

set_option maxRecDepth 16384

noncomputable section

open Idealize.ShloMosaic Idealize.ShloMosaic.TcCoe Idealize.SL.Sem
open Idealize.ShloMosaic.Pipeline (Dat)

namespace Cert.KernelIdeal.Acc

open Cert.KernelIdeal Cert.KernelIdeal.Gen

variable {F : FTy → Type} [FloatOps F]
variable (m : (ℓ : Loc nD τ sig) → Buf (Elt F) ℓ)

/-! ## the cross products -/

/-- The running sum of the cross products after step `n`. -/
def crossAt (c : Dev nD) (n : ℕ) (h : n < cfg0.N) : Vec F S64x500 .f32 := (outsAt0 m c n h).2.2.2.1

/-- Its value after a step that resets it: zero plus the step's contribution. -/
def crossReset (c : Dev nD) (n : ℕ) (h : n < cfg0.N) : Vec F S64x500 .f32 := k0_pay8 (iblk m c 0 ⟨n, h⟩) (iblk m c 1 ⟨n, h⟩) (k0_pay4 (F := F))

/-- Its value after a step that adds to what the step before left. -/
def crossStep (c : Dev nD) (n : ℕ) (h : n < cfg0.N) (acc : Vec F S64x500 .f32) : Vec F S64x500 .f32 := k0_pay8 (iblk m c 0 ⟨n, h⟩) (iblk m c 1 ⟨n, h⟩) acc

theorem crossAt_reset (c : Dev nD) (n : ℕ) (h : n < cfg0.N) (h0 : n % 4 = 0) : crossAt m c n h = crossReset m c n h := by
  have h1 : ¬n % 4 = 3 := by omega
  unfold crossAt crossReset
  rw [outsAt0_A m c ⟨n, h⟩ h0 h1]
  dsimp only
  rw [first_0]

theorem crossAt_step (c : Dev nD) (n : ℕ) (h : n + 1 < cfg0.N) (hne : ¬(n + 1) % 4 = 0) :
    crossAt m c (n + 1) h = crossStep m c (n + 1) h (crossAt m c n (Nat.lt_of_succ_lt h)) := by
  unfold crossAt crossStep
  by_cases h1 : (n + 1) % 4 = 3
  · rw [outsAt0_C m c ⟨n + 1, h⟩ hne h1]
    dsimp only
    rw [last_0]
    rfl
  · rw [outsAt0_B m c ⟨n + 1, h⟩ hne h1]
    dsimp only
    rw [middle_0]
    rfl

/-- After step 4·q + j the sum is the fold, from the first step of half q, of the contributions up to it. -/
theorem crossAt_eq_fold (c : Dev nD) (q j : ℕ) (hj : j < 4) (h : 4 * q + j < cfg0.N) :
    crossAt m c (4 * q + j) h = Pipeline.accAt (crossReset m c) (crossStep m c) (4 * q) j h :=
  Pipeline.eq_accAt (crossAt m c) 4 (crossReset m c) (crossStep m c) (crossAt_reset m c) (crossAt_step m c) q j hj h

/-- At the last step of a half, output block 2 receives a copy of the sum as that step leaves it. -/
theorem out2_last (c : Dev nD) (t : Fin cfg0.N) (h3 : t.val % 4 = 3) :
    (outsAt0 m c t.val t.isLt).1 = k0_pay1 (crossAt m c t.val t.isLt) := by
  have h0 : ¬t.val % 4 = 0 := by omega
  unfold crossAt
  rw [outsAt0_C m c t h0 h3]
  dsimp only
  rw [copied_2, last_0]

/-! ## the squared norms of x's rows -/

/-- The running sum of the squared norms of x's rows after step `n`. -/
def xsqAt (c : Dev nD) (n : ℕ) (h : n < cfg0.N) : Vec F S64x1 .f32 := (outsAt0 m c n h).2.2.2.2.1

/-- Its value after a step that resets it: zero plus the step's contribution. -/
def xsqReset (c : Dev nD) (n : ℕ) (h : n < cfg0.N) : Vec F S64x1 .f32 := k0_pay9 (iblk m c 0 ⟨n, h⟩) (k0_pay5 (F := F))

/-- Its value after a step that adds to what the step before left. -/
def xsqStep (c : Dev nD) (n : ℕ) (h : n < cfg0.N) (acc : Vec F S64x1 .f32) : Vec F S64x1 .f32 := k0_pay9 (iblk m c 0 ⟨n, h⟩) acc

theorem xsqAt_reset (c : Dev nD) (n : ℕ) (h : n < cfg0.N) (h0 : n % 4 = 0) : xsqAt m c n h = xsqReset m c n h := by
  have h1 : ¬n % 4 = 3 := by omega
  unfold xsqAt xsqReset
  rw [outsAt0_A m c ⟨n, h⟩ h0 h1]
  dsimp only
  rw [first_1]

theorem xsqAt_step (c : Dev nD) (n : ℕ) (h : n + 1 < cfg0.N) (hne : ¬(n + 1) % 4 = 0) :
    xsqAt m c (n + 1) h = xsqStep m c (n + 1) h (xsqAt m c n (Nat.lt_of_succ_lt h)) := by
  unfold xsqAt xsqStep
  by_cases h1 : (n + 1) % 4 = 3
  · rw [outsAt0_C m c ⟨n + 1, h⟩ hne h1]
    dsimp only
    rw [last_1]
    rfl
  · rw [outsAt0_B m c ⟨n + 1, h⟩ hne h1]
    dsimp only
    rw [middle_1]
    rfl

/-- After step 4·q + j the sum is the fold, from the first step of half q, of the contributions up to it. -/
theorem xsqAt_eq_fold (c : Dev nD) (q j : ℕ) (hj : j < 4) (h : 4 * q + j < cfg0.N) :
    xsqAt m c (4 * q + j) h = Pipeline.accAt (xsqReset m c) (xsqStep m c) (4 * q) j h :=
  Pipeline.eq_accAt (xsqAt m c) 4 (xsqReset m c) (xsqStep m c) (xsqAt_reset m c) (xsqAt_step m c) q j hj h

/-- At the last step of a half, output block 3 receives a copy of the sum as that step leaves it. -/
theorem out3_last (c : Dev nD) (t : Fin cfg0.N) (h3 : t.val % 4 = 3) :
    (outsAt0 m c t.val t.isLt).2.1 = k0_pay2 (xsqAt m c t.val t.isLt) := by
  have h0 : ¬t.val % 4 = 0 := by omega
  unfold xsqAt
  rw [outsAt0_C m c t h0 h3]
  dsimp only
  rw [copied_3, last_1]

/-! ## the squared norms of the centres -/

/-- The running sum of the squared norms of the centres after step `n`. -/
def csqAt (c : Dev nD) (n : ℕ) (h : n < cfg0.N) : Vec F S1x500 .f32 := (outsAt0 m c n h).2.2.2.2.2

/-- Its value after a step that resets it: zero plus the step's contribution. -/
def csqReset (c : Dev nD) (n : ℕ) (h : n < cfg0.N) : Vec F S1x500 .f32 := k0_pay10 (iblk m c 1 ⟨n, h⟩) (k0_pay6 (F := F))

/-- Its value after a step that adds to what the step before left. -/
def csqStep (c : Dev nD) (n : ℕ) (h : n < cfg0.N) (acc : Vec F S1x500 .f32) : Vec F S1x500 .f32 := k0_pay10 (iblk m c 1 ⟨n, h⟩) acc

theorem csqAt_reset (c : Dev nD) (n : ℕ) (h : n < cfg0.N) (h0 : n % 4 = 0) : csqAt m c n h = csqReset m c n h := by
  have h1 : ¬n % 4 = 3 := by omega
  unfold csqAt csqReset
  rw [outsAt0_A m c ⟨n, h⟩ h0 h1]
  dsimp only
  rw [first_2]

theorem csqAt_step (c : Dev nD) (n : ℕ) (h : n + 1 < cfg0.N) (hne : ¬(n + 1) % 4 = 0) :
    csqAt m c (n + 1) h = csqStep m c (n + 1) h (csqAt m c n (Nat.lt_of_succ_lt h)) := by
  unfold csqAt csqStep
  by_cases h1 : (n + 1) % 4 = 3
  · rw [outsAt0_C m c ⟨n + 1, h⟩ hne h1]
    dsimp only
    rw [last_2]
    rfl
  · rw [outsAt0_B m c ⟨n + 1, h⟩ hne h1]
    dsimp only
    rw [middle_2]
    rfl

/-- After step 4·q + j the sum is the fold, from the first step of half q, of the contributions up to it. -/
theorem csqAt_eq_fold (c : Dev nD) (q j : ℕ) (hj : j < 4) (h : 4 * q + j < cfg0.N) :
    csqAt m c (4 * q + j) h = Pipeline.accAt (csqReset m c) (csqStep m c) (4 * q) j h :=
  Pipeline.eq_accAt (csqAt m c) 4 (csqReset m c) (csqStep m c) (csqAt_reset m c) (csqAt_step m c) q j hj h

/-- At the last step of a half, output block 4 receives a copy of the sum as that step leaves it. -/
theorem out4_last (c : Dev nD) (t : Fin cfg0.N) (h3 : t.val % 4 = 3) :
    (outsAt0 m c t.val t.isLt).2.2.1 = k0_pay3 (csqAt m c t.val t.isLt) := by
  have h0 : ¬t.val % 4 = 0 := by omega
  unfold csqAt
  rw [outsAt0_C m c t h0 h3]
  dsimp only
  rw [copied_4, last_2]

end Cert.KernelIdeal.Acc

end
-- ==== Proof.Arrays.lean ====
/-
  The three output arrays after the launch. Each has a leading axis of extent two, one slot per half of the feature
  axis; the block for half h is written back once, after step 4·h + 3, with the copy of the running sum made at that
  step. The two blocks tile the array, so entry (h, r, s) of the array is entry (0, r, s) of that copy.
-/
import proofs.«176438_j9062380994856_2_alg».proof.Proof.Fold
import Idealize.ShloMosaic.Lib.ValueIdx

set_option maxRecDepth 16384

noncomputable section

open Idealize.ShloMosaic Idealize.ShloMosaic.TcCoe Idealize.SL.Sem
open Idealize.ShloMosaic.ValueIdx
open Idealize.ShloMosaic.Pipeline (Dat)

namespace Cert.KernelIdeal.Acc

open Cert.KernelIdeal Cert.KernelIdeal.Gen

variable {F : FTy → Type} [FloatOps F]
variable (m : (ℓ : Loc nD τ sig) → Buf (Elt F) ℓ)

/-- Half h ends at step 4·h + 3, a step of the grid. -/
theorem half_lt (h : Fin 2) : 4 * h.val + 3 < cfg0.N := by
  have := h.isLt
  rw [show cfg0.N = 8 from N_0]
  omega

/-- Each output window sits at block (t / 4, 0, 0) at step t. -/
theorem out_index : ∀ t : Fin cfg0.N,
    (win0_2.index t (0 : Fin 3) = t.val / 4 ∧ win0_2.index t (1 : Fin 3) = 0 ∧ win0_2.index t (2 : Fin 3) = 0)
    ∧ (win0_3.index t (0 : Fin 3) = t.val / 4 ∧ win0_3.index t (1 : Fin 3) = 0 ∧ win0_3.index t (2 : Fin 3) = 0)
    ∧ (win0_4.index t (0 : Fin 3) = t.val / 4 ∧ win0_4.index t (1 : Fin 3) = 0 ∧ win0_4.index t (2 : Fin 3) = 0) :=
  (by decide +kernel : ∀ t : Fin grid0.N,
    (win0_2.index t (0 : Fin 3) = t.val / 4 ∧ win0_2.index t (1 : Fin 3) = 0 ∧ win0_2.index t (2 : Fin 3) = 0)
    ∧ (win0_3.index t (0 : Fin 3) = t.val / 4 ∧ win0_3.index t (1 : Fin 3) = 0 ∧ win0_3.index t (2 : Fin 3) = 0)
    ∧ (win0_4.index t (0 : Fin 3) = t.val / 4 ∧ win0_4.index t (1 : Fin 3) = 0 ∧ win0_4.index t (2 : Fin 3) = 0))

/-! ## The cross products -/

theorem crossAt_congr (c : Dev nD) {n n' : ℕ} (e : n = n') (h : n < cfg0.N) (h' : n' < cfg0.N) :
    crossAt m c n h = crossAt m c n' h' := by
  subst e; rfl

/-- The array of the cross products: entry (h, r, s) is entry (0, r, s) of the copy made when half h ends. -/
def out2 (c : Dev nD) : Vec F S2x64x500 .f32 := fun i =>
  k0_pay1 (crossAt m c (4 * (i 0).val + 3) (half_lt (i 0))) (ix3 (0 : Fin 1) (i 1) (i 2))

/-- What a step that writes the block back writes is that step's block of the array. -/
theorem flushed2_eq (c : Dev nD) (t : Fin cfg0.N) (hf : (cfg0.win 2).flush t = true) :
    (dats m 0 c).flushed 2 t = ((cfg0.win 2).blk t).view.read (Elt F) (out2 m c) := by
  have h3 : t.val % 4 = 3 := (flush0_2 t).mp hf
  obtain ⟨e0, e1, e2⟩ := (out_index t).1
  show (cfg0.win 2).cut (grid0.coords t) ((dats m 0 c).after 2 t) = _
  rw [after0_2, out2_last m c t h3]
  funext y
  show k0_pay1 (crossAt m c t.val t.isLt) y = out2 m c (((cfg0.win 2).blk t).view.emb y)
  have hy0 : (y 0).val < 1 := (y 0).isLt
  have a0 : ((((cfg0.win 2).blk t).view.emb y) 0).val = t.val / 4 := by
    show win0_2.index t (0 : Fin 3) * 1 + 1 * (y 0).val = _
    omega
  unfold out2
  rw [crossAt_congr m c (show 4 * ((((cfg0.win 2).blk t).view.emb y) 0).val + 3 = t.val by rw [a0]; omega) _ t.isLt]
  congr 1
  funext a
  apply Fin.ext
  match a with
  | ⟨0, _⟩ => show (y 0).val = 0; omega
  | ⟨1, _⟩ => show (y 1).val = win0_2.index t (1 : Fin 3) * 64 + 1 * (y 1).val; omega
  | ⟨2, _⟩ => show (y 2).val = win0_2.index t (2 : Fin 3) * 500 + 1 * (y 2).val; omega

/-- An index of the array is in step t's block iff each coordinate is in the block's range on its axis. -/
theorem mem_blk2 (t : Fin cfg0.N) (i : S2x64x500.Idx) :
    i ∈ ((cfg0.win 2).blk t).view.set ↔ ∀ a : Fin 3, win0_2.index t a * S1x64x500.size a ≤ (i a).val ∧ (i a).val < win0_2.index t a * S1x64x500.size a + S1x64x500.size a := by
  show i ∈ ((View.whole main_v1_0).slice (win0_2.rect t)).set ↔ _
  rw [View.set_slice_whole, Rect.mem_set_unit]
  exact Iff.rfl

/-- Every entry lies in the block written back when its half ends. -/
theorem cover2 (i : S2x64x500.Idx) : ∃ t : Fin cfg0.N, (cfg0.win 2).flush t = true ∧ i ∈ ((cfg0.win 2).blk t).view.set := by
  have hi0 : (i 0).val < 2 := (i 0).isLt
  have hi1 : (i 1).val < 64 := (i 1).isLt
  have hi2 : (i 2).val < 500 := (i 2).isLt
  refine ⟨⟨4 * (i 0).val + 3, half_lt (i 0)⟩, (flush0_2 _).mpr (by show (4 * (i 0).val + 3) % 4 = 3; omega), ?_⟩
  obtain ⟨e0, e1, e2⟩ := (out_index ⟨4 * (i 0).val + 3, half_lt (i 0)⟩).1
  have e0' : win0_2.index ⟨4 * (i 0).val + 3, half_lt (i 0)⟩ (0 : Fin 3) = (i 0).val := by rw [e0]; show (4 * (i 0).val + 3) / 4 = _; omega
  rw [mem_blk2]
  intro a
  match a with
  | ⟨0, _⟩ => show win0_2.index _ (0 : Fin 3) * 1 ≤ (i 0).val ∧ (i 0).val < win0_2.index _ (0 : Fin 3) * 1 + 1; rw [e0']; omega
  | ⟨1, _⟩ => show win0_2.index _ (1 : Fin 3) * 64 ≤ (i 1).val ∧ (i 1).val < win0_2.index _ (1 : Fin 3) * 64 + 64; rw [e1]; omega
  | ⟨2, _⟩ => show win0_2.index _ (2 : Fin 3) * 500 ≤ (i 2).val ∧ (i 2).val < win0_2.index _ (2 : Fin 3) * 500 + 500; rw [e2]; omega

/-- So the array ends the launch holding exactly that. -/
theorem final2 (c : Dev nD) : (dats m 0 c).arrAt 2 cfg0.N = out2 m c :=
  (dats m 0 c).arrAt_eq_of_cover 2 (out2 m c) (flushed2_eq m c) (cover2)

/-! ## The squared norms of x's rows -/

theorem xsqAt_congr (c : Dev nD) {n n' : ℕ} (e : n = n') (h : n < cfg0.N) (h' : n' < cfg0.N) :
    xsqAt m c n h = xsqAt m c n' h' := by
  subst e; rfl

/-- The array of the squared norms of x's rows: entry (h, r, s) is entry (0, r, s) of the copy made when half h ends. -/
def out3 (c : Dev nD) : Vec F S2x64x1 .f32 := fun i =>
  k0_pay2 (xsqAt m c (4 * (i 0).val + 3) (half_lt (i 0))) (ix3 (0 : Fin 1) (i 1) (i 2))

/-- What a step that writes the block back writes is that step's block of the array. -/
theorem flushed3_eq (c : Dev nD) (t : Fin cfg0.N) (hf : (cfg0.win 3).flush t = true) :
    (dats m 0 c).flushed 3 t = ((cfg0.win 3).blk t).view.read (Elt F) (out3 m c) := by
  have h3 : t.val % 4 = 3 := (flush0_3 t).mp hf
  obtain ⟨e0, e1, e2⟩ := (out_index t).2.1
  show (cfg0.win 3).cut (grid0.coords t) ((dats m 0 c).after 3 t) = _
  rw [after0_3, out3_last m c t h3]
  funext y
  show k0_pay2 (xsqAt m c t.val t.isLt) y = out3 m c (((cfg0.win 3).blk t).view.emb y)
  have hy0 : (y 0).val < 1 := (y 0).isLt
  have a0 : ((((cfg0.win 3).blk t).view.emb y) 0).val = t.val / 4 := by
    show win0_3.index t (0 : Fin 3) * 1 + 1 * (y 0).val = _
    omega
  unfold out3
  rw [xsqAt_congr m c (show 4 * ((((cfg0.win 3).blk t).view.emb y) 0).val + 3 = t.val by rw [a0]; omega) _ t.isLt]
  congr 1
  funext a
  apply Fin.ext
  match a with
  | ⟨0, _⟩ => show (y 0).val = 0; omega
  | ⟨1, _⟩ => show (y 1).val = win0_3.index t (1 : Fin 3) * 64 + 1 * (y 1).val; omega
  | ⟨2, _⟩ => show (y 2).val = win0_3.index t (2 : Fin 3) * 1 + 1 * (y 2).val; omega

/-- An index of the array is in step t's block iff each coordinate is in the block's range on its axis. -/
theorem mem_blk3 (t : Fin cfg0.N) (i : S2x64x1.Idx) :
    i ∈ ((cfg0.win 3).blk t).view.set ↔ ∀ a : Fin 3, win0_3.index t a * S1x64x1.size a ≤ (i a).val ∧ (i a).val < win0_3.index t a * S1x64x1.size a + S1x64x1.size a := by
  show i ∈ ((View.whole main_v1_1).slice (win0_3.rect t)).set ↔ _
  rw [View.set_slice_whole, Rect.mem_set_unit]
  exact Iff.rfl

/-- Every entry lies in the block written back when its half ends. -/
theorem cover3 (i : S2x64x1.Idx) : ∃ t : Fin cfg0.N, (cfg0.win 3).flush t = true ∧ i ∈ ((cfg0.win 3).blk t).view.set := by
  have hi0 : (i 0).val < 2 := (i 0).isLt
  have hi1 : (i 1).val < 64 := (i 1).isLt
  have hi2 : (i 2).val < 1 := (i 2).isLt
  refine ⟨⟨4 * (i 0).val + 3, half_lt (i 0)⟩, (flush0_3 _).mpr (by show (4 * (i 0).val + 3) % 4 = 3; omega), ?_⟩
  obtain ⟨e0, e1, e2⟩ := (out_index ⟨4 * (i 0).val + 3, half_lt (i 0)⟩).2.1
  have e0' : win0_3.index ⟨4 * (i 0).val + 3, half_lt (i 0)⟩ (0 : Fin 3) = (i 0).val := by rw [e0]; show (4 * (i 0).val + 3) / 4 = _; omega
  rw [mem_blk3]
  intro a
  match a with
  | ⟨0, _⟩ => show win0_3.index _ (0 : Fin 3) * 1 ≤ (i 0).val ∧ (i 0).val < win0_3.index _ (0 : Fin 3) * 1 + 1; rw [e0']; omega
  | ⟨1, _⟩ => show win0_3.index _ (1 : Fin 3) * 64 ≤ (i 1).val ∧ (i 1).val < win0_3.index _ (1 : Fin 3) * 64 + 64; rw [e1]; omega
  | ⟨2, _⟩ => show win0_3.index _ (2 : Fin 3) * 1 ≤ (i 2).val ∧ (i 2).val < win0_3.index _ (2 : Fin 3) * 1 + 1; rw [e2]; omega

/-- So the array ends the launch holding exactly that. -/
theorem final3 (c : Dev nD) : (dats m 0 c).arrAt 3 cfg0.N = out3 m c :=
  (dats m 0 c).arrAt_eq_of_cover 3 (out3 m c) (flushed3_eq m c) (cover3)

/-! ## The squared norms of the centres -/

theorem csqAt_congr (c : Dev nD) {n n' : ℕ} (e : n = n') (h : n < cfg0.N) (h' : n' < cfg0.N) :
    csqAt m c n h = csqAt m c n' h' := by
  subst e; rfl

/-- The array of the squared norms of the centres: entry (h, r, s) is entry (0, r, s) of the copy made when half h ends. -/
def out4 (c : Dev nD) : Vec F S2x1x500 .f32 := fun i =>
  k0_pay3 (csqAt m c (4 * (i 0).val + 3) (half_lt (i 0))) (ix3 (0 : Fin 1) (i 1) (i 2))

/-- What a step that writes the block back writes is that step's block of the array. -/
theorem flushed4_eq (c : Dev nD) (t : Fin cfg0.N) (hf : (cfg0.win 4).flush t = true) :
    (dats m 0 c).flushed 4 t = ((cfg0.win 4).blk t).view.read (Elt F) (out4 m c) := by
  have h3 : t.val % 4 = 3 := (flush0_4 t).mp hf
  obtain ⟨e0, e1, e2⟩ := (out_index t).2.2
  show (cfg0.win 4).cut (grid0.coords t) ((dats m 0 c).after 4 t) = _
  rw [after0_4, out4_last m c t h3]
  funext y
  show k0_pay3 (csqAt m c t.val t.isLt) y = out4 m c (((cfg0.win 4).blk t).view.emb y)
  have hy0 : (y 0).val < 1 := (y 0).isLt
  have a0 : ((((cfg0.win 4).blk t).view.emb y) 0).val = t.val / 4 := by
    show win0_4.index t (0 : Fin 3) * 1 + 1 * (y 0).val = _
    omega
  unfold out4
  rw [csqAt_congr m c (show 4 * ((((cfg0.win 4).blk t).view.emb y) 0).val + 3 = t.val by rw [a0]; omega) _ t.isLt]
  congr 1
  funext a
  apply Fin.ext
  match a with
  | ⟨0, _⟩ => show (y 0).val = 0; omega
  | ⟨1, _⟩ => show (y 1).val = win0_4.index t (1 : Fin 3) * 1 + 1 * (y 1).val; omega
  | ⟨2, _⟩ => show (y 2).val = win0_4.index t (2 : Fin 3) * 500 + 1 * (y 2).val; omega

/-- An index of the array is in step t's block iff each coordinate is in the block's range on its axis. -/
theorem mem_blk4 (t : Fin cfg0.N) (i : S2x1x500.Idx) :
    i ∈ ((cfg0.win 4).blk t).view.set ↔ ∀ a : Fin 3, win0_4.index t a * S1x1x500.size a ≤ (i a).val ∧ (i a).val < win0_4.index t a * S1x1x500.size a + S1x1x500.size a := by
  show i ∈ ((View.whole main_v1_2).slice (win0_4.rect t)).set ↔ _
  rw [View.set_slice_whole, Rect.mem_set_unit]
  exact Iff.rfl

/-- Every entry lies in the block written back when its half ends. -/
theorem cover4 (i : S2x1x500.Idx) : ∃ t : Fin cfg0.N, (cfg0.win 4).flush t = true ∧ i ∈ ((cfg0.win 4).blk t).view.set := by
  have hi0 : (i 0).val < 2 := (i 0).isLt
  have hi1 : (i 1).val < 1 := (i 1).isLt
  have hi2 : (i 2).val < 500 := (i 2).isLt
  refine ⟨⟨4 * (i 0).val + 3, half_lt (i 0)⟩, (flush0_4 _).mpr (by show (4 * (i 0).val + 3) % 4 = 3; omega), ?_⟩
  obtain ⟨e0, e1, e2⟩ := (out_index ⟨4 * (i 0).val + 3, half_lt (i 0)⟩).2.2
  have e0' : win0_4.index ⟨4 * (i 0).val + 3, half_lt (i 0)⟩ (0 : Fin 3) = (i 0).val := by rw [e0]; show (4 * (i 0).val + 3) / 4 = _; omega
  rw [mem_blk4]
  intro a
  match a with
  | ⟨0, _⟩ => show win0_4.index _ (0 : Fin 3) * 1 ≤ (i 0).val ∧ (i 0).val < win0_4.index _ (0 : Fin 3) * 1 + 1; rw [e0']; omega
  | ⟨1, _⟩ => show win0_4.index _ (1 : Fin 3) * 1 ≤ (i 1).val ∧ (i 1).val < win0_4.index _ (1 : Fin 3) * 1 + 1; rw [e1]; omega
  | ⟨2, _⟩ => show win0_4.index _ (2 : Fin 3) * 500 ≤ (i 2).val ∧ (i 2).val < win0_4.index _ (2 : Fin 3) * 500 + 500; rw [e2]; omega

/-- So the array ends the launch holding exactly that. -/
theorem final4 (c : Dev nD) : (dats m 0 c).arrAt 4 cfg0.N = out4 m c :=
  (dats m 0 c).arrAt_eq_of_cover 4 (out4 m c) (flushed4_eq m c) (cover4)

end Cert.KernelIdeal.Acc

end
-- ==== Proof.KernelRun.lean ====
/-
  The program's run, read. After the launch the host adds the two halves of each of the three arrays — the two
  slots of the leading axis — and from the three sums computes the squared distance ‖x‖² − 2·x·c + ‖c‖², the radial
  kernel exp(γ'·dist) and the linear head rbf · Wᵀ + b. So the result array is that tail of the three half-sums, and
  the arguments end unchanged.
-/
import proofs.«176438_j9062380994856_2_alg».proof.Proof.Arrays
import Idealize.ShloMosaic.Lib.StableHlo.Run
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Acc

open Cert.KernelIdeal Cert.KernelIdeal.Gen

variable {F : FTy → Type} [FloatOps F]

/-! ## The host's operations after the launch, as functions of the three arrays -/

/-- The two halves of the cross products added: entry (b, n) is entry (0, b, n) plus entry (1, b, n). -/
def sum2 (o : Vec F S2x64x500 .f32) : FVec F S64x500 .f32 :=
  addf (shapeCast S64x500 (extractStridedSlice S1x64x500 ![0, 0, 0] o slices_S2x64x500_S1x64x500_0_0_0) shapeCasts_S1x64x500_S64x500)
    (shapeCast S64x500 (extractStridedSlice S1x64x500 ![1, 0, 0] o slices_S2x64x500_S1x64x500_1_0_0) shapeCasts_S1x64x500_S64x500)

/-- The two halves of the squared norms of x's rows added. -/
def sum3 (o : Vec F S2x64x1 .f32) : FVec F S64x1 .f32 :=
  addf (shapeCast S64x1 (extractStridedSlice S1x64x1 ![0, 0, 0] o slices_S2x64x1_S1x64x1_0_0_0) shapeCasts_S1x64x1_S64x1)
    (shapeCast S64x1 (extractStridedSlice S1x64x1 ![1, 0, 0] o slices_S2x64x1_S1x64x1_1_0_0) shapeCasts_S1x64x1_S64x1)

/-- The two halves of the squared norms of the centres added. -/
def sum4 (o : Vec F S2x1x500 .f32) : FVec F S1x500 .f32 :=
  addf (shapeCast S1x500 (extractStridedSlice S1x1x500 ![0, 0, 0] o slices_S2x1x500_S1x1x500_0_0_0) shapeCasts_S1x1x500_S1x500)
    (shapeCast S1x500 (extractStridedSlice S1x1x500 ![1, 0, 0] o slices_S2x1x500_S1x1x500_1_0_0) shapeCasts_S1x1x500_S1x500)

/-- Squared distance, radial kernel and linear head, from the cross products, the two families of squared norms,
    the head's weights and its bias. -/
def ktail (cross : FVec F S64x500 .f32) (xsq : FVec F S64x1 .f32) (csq : FVec F S1x500 .f32)
    (w : FVec F S8x500 .f32) (bias : FVec F S8 .f32) : FVec F S64x8 .f32 :=
  addf (Host.dotGeneral (φ₁ := .f32) (φ₂ := .f32) dot_S64x500_S500x8_S64x8_1_0_0_1_n_n (some .fp32)
      (Host.exp (mulf (broadcastInDim S64x500 ![] bcast_S_S64x500 (constant S_ .f32 0xB8D1B717#32))
        (addf (subf (broadcastInDim S64x500 ![0, 1] bcast_S64x1_S64x500_0_1 xsq)
            (mulf (broadcastInDim S64x500 ![] bcast_S_S64x500 (constant S_ .f32 0x40000000#32)) cross))
          (broadcastInDim S64x500 ![0, 1] bcast_S1x500_S64x500_0_1 csq))))
      (transpose S500x8 [1, 0] w transposes_S8x500_S500x8_1_0))
    (broadcastInDim S64x8 ![0, 1] bcast_S1x8_S64x8_0_1 (broadcastInDim S1x8 ![1] bcast_S8_S1x8_1 bias))

variable (m : (ℓ : Loc nD τ sig) → Buf (Elt F) ℓ) (ρ : Dev nD → PrngReg)

/-! ## What the host's operations find when the launch returns -/

theorem found2 (c : Dev nD) : Pipeline.withArrays (cfgs 0).spec c (V0 m c) (fun w => (dats m 0 c).arrAt w (cfgs 0).N) (Proc.devRef .tc main_v1_0) = out2 m c :=
  (Pipeline.withArrays_arr spec0 launch0.win.arr_inj c _ _ 2).trans (final2 m c)

theorem found3 (c : Dev nD) : Pipeline.withArrays (cfgs 0).spec c (V0 m c) (fun w => (dats m 0 c).arrAt w (cfgs 0).N) (Proc.devRef .tc main_v1_1) = out3 m c :=
  (Pipeline.withArrays_arr spec0 launch0.win.arr_inj c _ _ 3).trans (final3 m c)

theorem found4 (c : Dev nD) : Pipeline.withArrays (cfgs 0).spec c (V0 m c) (fun w => (dats m 0 c).arrAt w (cfgs 0).N) (Proc.devRef .tc main_v1_2) = out4 m c :=
  (Pipeline.withArrays_arr spec0 launch0.win.arr_inj c _ _ 4).trans (final4 m c)

theorem found_w (c : Dev nD) : Pipeline.withArrays (cfgs 0).spec c (V0 m c) (fun w => (dats m 0 c).arrAt w (cfgs 0).N) (Proc.devRef .tc main_arg2) = m ((c : Thread nD τ).loc main_arg2) :=
  (Pipeline.withArrays_of_ne _ c (V0 m c) _ main_arg2 (by exact (by decide : ∀ w, Pipeline.arrRef spec0 w ≠ main_arg2))).trans (V_main_arg2 m c)

theorem found_b (c : Dev nD) : Pipeline.withArrays (cfgs 0).spec c (V0 m c) (fun w => (dats m 0 c).arrAt w (cfgs 0).N) (Proc.devRef .tc main_arg3) = m ((c : Thread nD τ).loc main_arg3) :=
  (Pipeline.withArrays_of_ne _ c (V0 m c) _ main_arg3 (by exact (by decide : ∀ w, Pipeline.arrRef spec0 w ≠ main_arg3))).trans (V_main_arg3 m c)

/-! ## The result -/

set_option maxHeartbeats 4000000 in
/-- The result array after the host's last operation: the tail of the three half-sums. -/
theorem result_eq (c : Dev nD) :
    Pipeline.afterTail₀ cfgs (dats m) 0 (V0 m) [hostOps1] c main_v30
      = ktail (sum2 (out2 m c)) (sum3 (out3 m c)) (sum4 (out4 m c)) (m ((c : Thread nD τ).loc main_arg2)) (m ((c : Thread nD τ).loc main_arg3)) := by
  unfold Pipeline.afterTail₀
  simp only [List.flatten_cons, List.flatten_nil, List.append_nil]
  after_results
  rw [found2, found3, found4, found_w, found_b]
  rfl

/-- Every weakly fair execution ends with the result array at that value and the four arguments unchanged. -/
theorem run : θ_run defs (onTc (τ := τ) (main (F := F))) ⟨m, fun _ => 0, ρ⟩ fun r => ∀ c : Dev nD,
      r.2.mem ((c.tc : Thread nD τ).loc main_v30)
        = ktail (sum2 (out2 m c)) (sum3 (out3 m c)) (sum4 (out4 m c)) (m ((c : Thread nD τ).loc main_arg2)) (m ((c : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v30 (Pipeline.mem_restRefs_of main_v30 (by decide) (by decide))).trans (result_eq m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.Acc

end
-- ==== Proof.Addends.lean ====
/-
  One step's contribution to each of the three sums, entry by entry, on the extended reals. With X the step's
  64 × 8192 block of x and C its 500 × 8192 block of the centres:
    cross products  — entry (b, n) receives  Σⱼ X[b, j] · C[n, j]   (a matrix product into a zero accumulator;
                      narrowing the operands to a shorter float format changes nothing on the extended reals);
    squared norms of x's rows — entry (b, 0) receives  Σⱼ X[b, j] · X[b, j];
    squared norms of the centres — entry (0, n) receives  Σⱼ 1 · (C[n, j] · C[n, j])  (a product with a row of ones).
  The zero blocks read 0 everywhere, and the copies into the output blocks only add a leading axis of extent one.
-/
import proofs.«176438_j9062380994856_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

open Idealize.ShloMosaic Idealize.ShloMosaic.TcCoe Idealize.SL.Sem
open Idealize.ShloMosaic.ValueIdx

namespace Cert.KernelIdeal.Acc

open Cert.KernelIdeal Cert.KernelIdeal.Gen

/-! ## The two matrix products' operand indices -/

theorem cross_l0 (i : S64x500.Idx) (q : dot_S64x8192_S500x8192_S64x500_1_1_0_0_n_n.contr.Idx) : (dot_S64x8192_S500x8192_S64x500_1_1_0_0_n_n.lhsIdx i q 0).val = (i 0).val := by
  unfold DotDims.lhsIdx
  rw [dif_neg (show ¬(0 : Fin S64x8192.rank) ∈ dot_S64x8192_S500x8192_S64x500_1_1_0_0_n_n.lhsBatch by decide), dif_pos (show (0 : Fin S64x8192.rank) ∈ dot_S64x8192_S500x8192_S64x500_1_1_0_0_n_n.lhsNonContracting by decide)]
  rfl
theorem cross_l1 (i : S64x500.Idx) (q : dot_S64x8192_S500x8192_S64x500_1_1_0_0_n_n.contr.Idx) : (dot_S64x8192_S500x8192_S64x500_1_1_0_0_n_n.lhsIdx i q 1).val = (q ⟨0, by decide⟩).val :=
  dot_S64x8192_S500x8192_S64x500_1_1_0_0_n_n.lhsIdx_val_of_single rfl i q
theorem cross_r0 (i : S64x500.Idx) (q : dot_S64x8192_S500x8192_S64x500_1_1_0_0_n_n.contr.Idx) : (dot_S64x8192_S500x8192_S64x500_1_1_0_0_n_n.rhsIdx i q 0).val = (i 1).val := by
  unfold DotDims.rhsIdx
  rw [dif_neg (show ¬(0 : Fin S500x8192.rank) ∈ dot_S64x8192_S500x8192_S64x500_1_1_0_0_n_n.rhsBatch by decide), dif_pos (show (0 : Fin S500x8192.rank) ∈ dot_S64x8192_S500x8192_S64x500_1_1_0_0_n_n.rhsNonContracting by decide)]
  rfl
theorem cross_r1 (i : S64x500.Idx) (q : dot_S64x8192_S500x8192_S64x500_1_1_0_0_n_n.contr.Idx) : (dot_S64x8192_S500x8192_S64x500_1_1_0_0_n_n.rhsIdx i q 1).val = (q ⟨0, by decide⟩).val :=
  dot_S64x8192_S500x8192_S64x500_1_1_0_0_n_n.rhsIdx_val_of_single rfl i q

theorem crossL (b : Fin 64) (n : Fin 500) (k : Fin 8192) :
    dot_S64x8192_S500x8192_S64x500_1_1_0_0_n_n.lhsIdx (ix2 b n) ((contrEquiv1 dot_S64x8192_S500x8192_S64x500_1_1_0_0_n_n 8192 rfl rfl).symm k) = ix2 b k := funext fun a => Fin.ext (by
  have hk := contrEquiv1_symm_val dot_S64x8192_S500x8192_S64x500_1_1_0_0_n_n 8192 rfl rfl k
  match a with
  | ⟨0, _⟩ => exact cross_l0 _ _
  | ⟨1, _⟩ => exact (cross_l1 _ _).trans hk)

theorem crossR (b : Fin 64) (n : Fin 500) (k : Fin 8192) :
    dot_S64x8192_S500x8192_S64x500_1_1_0_0_n_n.rhsIdx (ix2 b n) ((contrEquiv1 dot_S64x8192_S500x8192_S64x500_1_1_0_0_n_n 8192 rfl rfl).symm k) = ix2 n k := funext fun a => Fin.ext (by
  have hk := contrEquiv1_symm_val dot_S64x8192_S500x8192_S64x500_1_1_0_0_n_n 8192 rfl rfl k
  match a with
  | ⟨0, _⟩ => exact cross_r0 _ _
  | ⟨1, _⟩ => exact (cross_r1 _ _).trans hk)

theorem ones_l0 (i : S1x500.Idx) (q : dot_S1x8192_S500x8192_S1x500_1_1_0_0_n_n.contr.Idx) : (dot_S1x8192_S500x8192_S1x500_1_1_0_0_n_n.lhsIdx i q 0).val = (i 0).val := by
  unfold DotDims.lhsIdx
  rw [dif_neg (show ¬(0 : Fin S1x8192.rank) ∈ dot_S1x8192_S500x8192_S1x500_1_1_0_0_n_n.lhsBatch by decide), dif_pos (show (0 : Fin S1x8192.rank) ∈ dot_S1x8192_S500x8192_S1x500_1_1_0_0_n_n.lhsNonContracting by decide)]
  rfl
theorem ones_l1 (i : S1x500.Idx) (q : dot_S1x8192_S500x8192_S1x500_1_1_0_0_n_n.contr.Idx) : (dot_S1x8192_S500x8192_S1x500_1_1_0_0_n_n.lhsIdx i q 1).val = (q ⟨0, by decide⟩).val :=
  dot_S1x8192_S500x8192_S1x500_1_1_0_0_n_n.lhsIdx_val_of_single rfl i q
theorem ones_r0 (i : S1x500.Idx) (q : dot_S1x8192_S500x8192_S1x500_1_1_0_0_n_n.contr.Idx) : (dot_S1x8192_S500x8192_S1x500_1_1_0_0_n_n.rhsIdx i q 0).val = (i 1).val := by
  unfold DotDims.rhsIdx
  rw [dif_neg (show ¬(0 : Fin S500x8192.rank) ∈ dot_S1x8192_S500x8192_S1x500_1_1_0_0_n_n.rhsBatch by decide), dif_pos (show (0 : Fin S500x8192.rank) ∈ dot_S1x8192_S500x8192_S1x500_1_1_0_0_n_n.rhsNonContracting by decide)]
  rfl
theorem ones_r1 (i : S1x500.Idx) (q : dot_S1x8192_S500x8192_S1x500_1_1_0_0_n_n.contr.Idx) : (dot_S1x8192_S500x8192_S1x500_1_1_0_0_n_n.rhsIdx i q 1).val = (q ⟨0, by decide⟩).val :=
  dot_S1x8192_S500x8192_S1x500_1_1_0_0_n_n.rhsIdx_val_of_single rfl i q

theorem onesL (z : Fin 1) (n : Fin 500) (k : Fin 8192) :
    dot_S1x8192_S500x8192_S1x500_1_1_0_0_n_n.lhsIdx (ix2 z n) ((contrEquiv1 dot_S1x8192_S500x8192_S1x500_1_1_0_0_n_n 8192 rfl rfl).symm k) = ix2 z k := funext fun a => Fin.ext (by
  have hk := contrEquiv1_symm_val dot_S1x8192_S500x8192_S1x500_1_1_0_0_n_n 8192 rfl rfl k
  match a with
  | ⟨0, _⟩ => exact ones_l0 _ _
  | ⟨1, _⟩ => exact (ones_l1 _ _).trans hk)

theorem onesR (z : Fin 1) (n : Fin 500) (k : Fin 8192) :
    dot_S1x8192_S500x8192_S1x500_1_1_0_0_n_n.rhsIdx (ix2 z n) ((contrEquiv1 dot_S1x8192_S500x8192_S1x500_1_1_0_0_n_n 8192 rfl rfl).symm k) = ix2 n k := funext fun a => Fin.ext (by
  have hk := contrEquiv1_symm_val dot_S1x8192_S500x8192_S1x500_1_1_0_0_n_n 8192 rfl rfl k
  match a with
  | ⟨0, _⟩ => exact ones_r0 _ _
  | ⟨1, _⟩ => exact (ones_r1 _ _).trans hk)

/-- The float word 0x3F800000 is the number one. -/
theorem one_word : Ideal.ofBits .f32 0x3F800000#32 = 1 := by
  simp [Ideal.ofBits, Ideal.ieee, -EReal.coe_mul]; norm_num

/-! ## The three contributions -/

/-- The cross products' update at (b, n): what was there plus Σⱼ X[b, j] · C[n, j]. -/
theorem cross_apply (X : Vec Ideal S64x8192 .f32) (C : Vec Ideal S500x8192 .f32) (acc : Vec Ideal S64x500 .f32)
    (b : Fin 64) (n : Fin 500) :
    k0_pay8 (F := Ideal) X C acc (ix2 b n) = acc (ix2 b n) + ∑ j : Fin 8192, X (ix2 b j) * C (ix2 n j) := by
  unfold k0_pay8 k0_pay7
  simp only [shapeCast_self]
  rw [addf_apply]
  refine congrArg (acc (ix2 b n) + ·) ?_
  simp only [matmul]
  rw [Ideal.matmul_constant_zero_apply, ← Equiv.sum_comp (contrEquiv1 dot_S64x8192_S500x8192_S64x500_1_1_0_0_n_n 8192 rfl rfl).symm]
  refine Finset.sum_congr rfl fun k _ => ?_
  rw [crossL, crossR]
  rfl

/-- The update of x's squared row norms at (b, 0): what was there plus Σⱼ X[b, j] · X[b, j]. -/
theorem xsq_apply (X : Vec Ideal S64x8192 .f32) (acc : Vec Ideal S64x1 .f32) (b : Fin 64) (z : Fin 1) :
    k0_pay9 (F := Ideal) X acc (ix2 b z) = acc (ix2 b z) + ∑ j : Fin 8192, X (ix2 b j) * X (ix2 b j) := by
  unfold k0_pay9 k0_pay7
  simp only [shapeCast_self]
  rw [addf_apply]
  refine congrArg (acc (ix2 b z) + ·) ?_
  refine (shapeCast_apply _ shapeCasts_S64_S64x1 (ix2 b z) (ix1 b) ?_).trans ?_
  · rw [Shape.rowMajor_val_one, Shape.rowMajor_val_two]
    show b.val = b.val * 1 + z.val
    omega
  refine (Ideal.multiReduction_add_single (mulf X X) 0x00000000#32 reduces_S64x8192_S64 _ _ (ix1 b)).trans ?_
  refine Finset.sum_congr rfl fun k _ => ?_
  have e : reduces_S64x8192_S64.lift (ix1 b) k = ix2 b k := funext fun a => Fin.ext (by
    match a with
    | ⟨0, _⟩ => rfl
    | ⟨1, _⟩ => rfl)
  rw [e]
  rfl

/-- The update of the centres' squared norms at (0, n): what was there plus Σⱼ C[n, j] · C[n, j]. -/
theorem csq_apply (C : Vec Ideal S500x8192 .f32) (acc : Vec Ideal S1x500 .f32) (z : Fin 1) (n : Fin 500) :
    k0_pay10 (F := Ideal) C acc (ix2 z n) = acc (ix2 z n) + ∑ j : Fin 8192, C (ix2 n j) * C (ix2 n j) := by
  unfold k0_pay10
  simp only [shapeCast_self]
  rw [addf_apply]
  refine congrArg (acc (ix2 z n) + ·) ?_
  simp only [matmul]
  rw [Ideal.matmul_constant_zero_apply, ← Equiv.sum_comp (contrEquiv1 dot_S1x8192_S500x8192_S1x500_1_1_0_0_n_n 8192 rfl rfl).symm]
  refine Finset.sum_congr rfl fun k _ => ?_
  rw [onesL, onesR]
  show Ideal.ofBits .f32 0x3F800000#32 * (C (ix2 n k) * C (ix2 n k)) = _
  rw [one_word, one_mul]

/-! ## The zero blocks and the copies -/

theorem zero_cross (i : S64x500.Idx) : k0_pay4 (F := Ideal) i = 0 := by
  unfold k0_pay4
  simp only [shapeCast_self]
  exact Ideal.ofBits_zero_f32

theorem zero_xsq (i : S64x1.Idx) : k0_pay5 (F := Ideal) i = 0 := by
  unfold k0_pay5
  simp only [shapeCast_self]
  exact Ideal.ofBits_zero_f32

theorem zero_csq (i : S1x500.Idx) : k0_pay6 (F := Ideal) i = 0 := by
  unfold k0_pay6
  simp only [shapeCast_self]
  exact Ideal.ofBits_zero_f32

/-- The copy into an output block adds a leading axis of extent one: entry (0, b, n) is entry (b, n). -/
theorem copy_cross (v : Vec Ideal S64x500 .f32) (u : Fin 1) (b : Fin 64) (n : Fin 500) :
    k0_pay1 (F := Ideal) v (ix3 u b n) = v (ix2 b n) :=
  shapeCast_ab_1ab_apply v shapeCasts_S64x500_S1x64x500 u b n

theorem copy_xsq (v : Vec Ideal S64x1 .f32) (u : Fin 1) (b : Fin 64) (z : Fin 1) :
    k0_pay2 (F := Ideal) v (ix3 u b z) = v (ix2 b z) :=
  shapeCast_ab_1ab_apply v shapeCasts_S64x1_S1x64x1 u b z

theorem copy_csq (v : Vec Ideal S1x500 .f32) (u : Fin 1) (z : Fin 1) (n : Fin 500) :
    k0_pay3 (F := Ideal) v (ix3 u z n) = v (ix2 z n) :=
  shapeCast_ab_1ab_apply v shapeCasts_S1x500_S1x1x500 u z n

end Cert.KernelIdeal.Acc

end
-- ==== Proof.Blocks.lean ====
/-
  What the body is handed at each step. The feature axis of length 65536 is cut into eight tiles of 8192; at step
  t the block of x holds, at (b, j), the entry (b, 8192·t + j) of x flattened to 64 × 65536, and the block of the
  centres holds at (n, j) the entry (n, 8192·t + j). The flattening of x is the one reshape done before the launch.
-/
import proofs.«176438_j9062380994856_2_alg».proof.Proof.Gen.KernelIdeal.Frame
import Idealize.ShloMosaic.Lib.ValueIdx
import Idealize.ShloMosaic.Lib.Pipeline.Value
import Idealize.ShloMosaic.Lib.StableHlo.Run

set_option maxRecDepth 16384

noncomputable section

open Idealize.ShloMosaic Idealize.ShloMosaic.TcCoe Idealize.SL.Sem
open Idealize.ShloMosaic.ValueIdx

namespace Cert.KernelIdeal.Acc

open Cert.KernelIdeal Cert.KernelIdeal.Gen

variable {F : FTy → Type} [FloatOps F]
variable (m : (ℓ : Loc nD τ sig) → Buf (Elt F) ℓ)

/-- Both input windows sit at block (0, t) at step t. -/
theorem in_index : ∀ t : Fin cfg0.N, (win0_0.index t (0 : Fin 2) = 0 ∧ win0_0.index t (1 : Fin 2) = t.val)
    ∧ (win0_1.index t (0 : Fin 2) = 0 ∧ win0_1.index t (1 : Fin 2) = t.val) :=
  (by decide +kernel : ∀ t : Fin grid0.N, (win0_0.index t (0 : Fin 2) = 0 ∧ win0_0.index t (1 : Fin 2) = t.val)
    ∧ (win0_1.index t (0 : Fin 2) = 0 ∧ win0_1.index t (1 : Fin 2) = t.val))

/-- Column 8192·t + j of a 65536-column array, for a step t of the grid. -/
abbrev col (t : Fin cfg0.N) (j : Fin 8192) : Fin 65536 :=
  ⟨8192 * t.val + j.val, by have h : t.val < 8 := lt_of_lt_of_eq t.isLt (show cfg0.N = 8 from N_0); have := j.isLt; omega⟩

/-- The block of x at step t, entry (b, j), is entry (b, 8192·t + j) of the flattened x the launch finds. -/
theorem xblk_apply (c : Dev nD) (t : Fin cfg0.N) (b : Fin 64) (j : Fin 8192) :
    (iblk m c 0 t : Vec F S64x8192 .f32) (ix2 b j) = (V m c main_v0 : Vec F S64x65536 .f32) (ix2 b (col t j)) := by
  unfold iblk
  rw [View.read_apply]
  show V m c main_v0 _ = V m c main_v0 _
  congr 1
  funext a
  apply Fin.ext
  match a with
  | ⟨0, _⟩ => show win0_0.index t 0 * 64 + 1 * b.val = b.val; rw [(in_index t).1.1]; omega
  | ⟨1, _⟩ => show win0_0.index t 1 * 8192 + 1 * j.val = 8192 * t.val + j.val; rw [(in_index t).1.2]; omega

/-- The block of the centres at step t, entry (n, j), is entry (n, 8192·t + j) of the centres. -/
theorem cblk_apply (c : Dev nD) (t : Fin cfg0.N) (n : Fin 500) (j : Fin 8192) :
    (iblk m c 1 t : Vec F S500x8192 .f32) (ix2 n j) = (V m c main_arg1 : Vec F S500x65536 .f32) (ix2 n (col t j)) := by
  unfold iblk
  rw [View.read_apply]
  show V m c main_arg1 _ = V m c main_arg1 _
  congr 1
  funext a
  apply Fin.ext
  match a with
  | ⟨0, _⟩ => show win0_1.index t 0 * 500 + 1 * n.val = n.val; rw [(in_index t).2.1]; omega
  | ⟨1, _⟩ => show win0_1.index t 1 * 8192 + 1 * j.val = 8192 * t.val + j.val; rw [(in_index t).2.2]; omega

/-- The flattened x the launch finds is the reshape of the argument x. -/
theorem flat_x (c : Dev nD) :
    (V m c main_v0 : Vec F S64x65536 .f32) = shapeCast S64x65536 (m ((c : Thread nD τ).loc main_arg0)) shapeCasts_S64x256x256_S64x65536 := by
  show StableHlo.after hostOps0 (fun b => m (c, b)) (Proc.devRef .tc main_v0) = _
  after_results
  rfl

end Cert.KernelIdeal.Acc

end
-- ==== Proof.Halves.lean ====
/-
  The three sums at the end of a half, entry by entry, in the coordinates of the whole arrays. Step 4·q + s of the
  grid works on tile 4·q + s of the feature axis, so when half q ends each running sum is zero plus the contributions
  of tiles 4·q, 4·q + 1, 4·q + 2, 4·q + 3 — the fold of the four steps unrolled at an entry.
-/
import proofs.«176438_j9062380994856_2_alg».proof.Proof.Fold
import proofs.«176438_j9062380994856_2_alg».proof.Proof.Addends
import proofs.«176438_j9062380994856_2_alg».proof.Proof.Blocks

set_option maxRecDepth 16384

noncomputable section

open Idealize.ShloMosaic Idealize.ShloMosaic.TcCoe Idealize.SL.Sem
open Idealize.ShloMosaic.ValueIdx

namespace Cert.KernelIdeal.Acc

open Cert.KernelIdeal Cert.KernelIdeal.Gen

variable (m : (ℓ : Loc nD τ sig) → Buf (Elt Ideal) ℓ)

/-- Column 8192·n + j of a 65536-column array, for any natural n (wrapped past the last tile, where it is never used). -/
abbrev colN (n : ℕ) (j : Fin 8192) : Fin 65536 := ⟨(8192 * n + j.val) % 65536, Nat.mod_lt _ (by decide)⟩

theorem col_eq (t : Fin cfg0.N) (j : Fin 8192) : col t j = colN t.val j :=
  Fin.ext (Nat.mod_eq_of_lt (col t j).isLt).symm

/-! ## cross products -/

/-- Tile n's share of the cross product at (b, k): Σⱼ x[b, 8192·n + j] · c[k, 8192·n + j]. -/
def crossAdd (xf : Vec Ideal S64x65536 .f32) (cc : Vec Ideal S500x65536 .f32) (n : ℕ) (i : S64x500.Idx) : EReal :=
  ∑ j : Fin 8192, xf (ix2 (i 0) (colN n j)) * cc (ix2 (i 1) (colN n j))

/-- One step adds its tile's share to what it is given. -/
theorem cross_contrib (c : Dev nD) (n : ℕ) (h : n < cfg0.N) (acc : Vec Ideal S64x500 .f32) (i : S64x500.Idx) :
    k0_pay8 (F := Ideal) (iblk m c 0 ⟨n, h⟩) (iblk m c 1 ⟨n, h⟩) acc i = acc i + crossAdd (V m c main_v0) (V m c main_arg1) n i := by
  obtain ⟨p, q, rfl⟩ : ∃ (p : Fin 64) (q : Fin 500), i = ix2 p q := ⟨i 0, i 1, eq_ix2 i⟩
  refine (cross_apply (iblk m c 0 ⟨n, h⟩) (iblk m c 1 ⟨n, h⟩) acc p q).trans ?_
  refine congrArg (acc (ix2 p q) + ·) ?_
  unfold crossAdd
  refine Finset.sum_congr rfl fun j _ => ?_
  rw [xblk_apply m c ⟨n, h⟩ p j, cblk_apply m c ⟨n, h⟩ q j, col_eq]

/-- When half q ends the sum is zero plus the shares of the half's four tiles. -/
theorem cross_half (c : Dev nD) (q : ℕ) (h : 4 * q + 3 < cfg0.N) (i : S64x500.Idx) :
    crossAt m c (4 * q + 3) h i = 0 + ∑ s ∈ Finset.range 4, crossAdd (V m c main_v0) (V m c main_arg1) (4 * q + s) i :=
  (congrFun (crossAt_eq_fold m c q 3 (by decide) h) i).trans
    (Pipeline.accAt_add_apply (ι := S64x500.Idx) (β := EReal) (crossReset m c) (crossStep m c) (fun _ => 0)
      (crossAdd (V m c main_v0) (V m c main_arg1)) (4 * q) 3
      (fun h i => by
        unfold crossReset
        rw [cross_contrib m c (4 * q) h _ i, zero_cross])
      (fun n h acc i _ _ => by
        unfold crossStep
        exact cross_contrib m c n h acc i)
      3 le_rfl h i)

/-! ## squared norms of x's rows -/

/-- Tile n's share of the squared norm of row b of x: Σⱼ x[b, 8192·n + j]². -/
def xsqAdd (xf : Vec Ideal S64x65536 .f32) (n : ℕ) (i : S64x1.Idx) : EReal :=
  ∑ j : Fin 8192, xf (ix2 (i 0) (colN n j)) * xf (ix2 (i 0) (colN n j))

/-- One step adds its tile's share to what it is given. -/
theorem xsq_contrib (c : Dev nD) (n : ℕ) (h : n < cfg0.N) (acc : Vec Ideal S64x1 .f32) (i : S64x1.Idx) :
    k0_pay9 (F := Ideal) (iblk m c 0 ⟨n, h⟩) acc i = acc i + xsqAdd (V m c main_v0) n i := by
  obtain ⟨p, q, rfl⟩ : ∃ (p : Fin 64) (q : Fin 1), i = ix2 p q := ⟨i 0, i 1, eq_ix2 i⟩
  refine (xsq_apply (iblk m c 0 ⟨n, h⟩) acc p q).trans ?_
  refine congrArg (acc (ix2 p q) + ·) ?_
  unfold xsqAdd
  refine Finset.sum_congr rfl fun j _ => ?_
  rw [xblk_apply m c ⟨n, h⟩ p j, col_eq]

/-- When half q ends the sum is zero plus the shares of the half's four tiles. -/
theorem xsq_half (c : Dev nD) (q : ℕ) (h : 4 * q + 3 < cfg0.N) (i : S64x1.Idx) :
    xsqAt m c (4 * q + 3) h i = 0 + ∑ s ∈ Finset.range 4, xsqAdd (V m c main_v0) (4 * q + s) i :=
  (congrFun (xsqAt_eq_fold m c q 3 (by decide) h) i).trans
    (Pipeline.accAt_add_apply (ι := S64x1.Idx) (β := EReal) (xsqReset m c) (xsqStep m c) (fun _ => 0)
      (xsqAdd (V m c main_v0)) (4 * q) 3
      (fun h i => by
        unfold xsqReset
        rw [xsq_contrib m c (4 * q) h _ i, zero_xsq])
      (fun n h acc i _ _ => by
        unfold xsqStep
        exact xsq_contrib m c n h acc i)
      3 le_rfl h i)

/-! ## squared norms of the centres -/

/-- Tile n's share of the squared norm of centre k: Σⱼ c[k, 8192·n + j]². -/
def csqAdd (cc : Vec Ideal S500x65536 .f32) (n : ℕ) (i : S1x500.Idx) : EReal :=
  ∑ j : Fin 8192, cc (ix2 (i 1) (colN n j)) * cc (ix2 (i 1) (colN n j))

/-- One step adds its tile's share to what it is given. -/
theorem csq_contrib (c : Dev nD) (n : ℕ) (h : n < cfg0.N) (acc : Vec Ideal S1x500 .f32) (i : S1x500.Idx) :
    k0_pay10 (F := Ideal) (iblk m c 1 ⟨n, h⟩) acc i = acc i + csqAdd (V m c main_arg1) n i := by
  obtain ⟨p, q, rfl⟩ : ∃ (p : Fin 1) (q : Fin 500), i = ix2 p q := ⟨i 0, i 1, eq_ix2 i⟩
  refine (csq_apply (iblk m c 1 ⟨n, h⟩) acc p q).trans ?_
  refine congrArg (acc (ix2 p q) + ·) ?_
  unfold csqAdd
  refine Finset.sum_congr rfl fun j _ => ?_
  rw [cblk_apply m c ⟨n, h⟩ q j, col_eq]

/-- When half q ends the sum is zero plus the shares of the half's four tiles. -/
theorem csq_half (c : Dev nD) (q : ℕ) (h : 4 * q + 3 < cfg0.N) (i : S1x500.Idx) :
    csqAt m c (4 * q + 3) h i = 0 + ∑ s ∈ Finset.range 4, csqAdd (V m c main_arg1) (4 * q + s) i :=
  (congrFun (csqAt_eq_fold m c q 3 (by decide) h) i).trans
    (Pipeline.accAt_add_apply (ι := S1x500.Idx) (β := EReal) (csqReset m c) (csqStep m c) (fun _ => 0)
      (csqAdd (V m c main_arg1)) (4 * q) 3
      (fun h i => by
        unfold csqReset
        rw [csq_contrib m c (4 * q) h _ i, zero_csq])
      (fun n h acc i _ _ => by
        unfold csqStep
        exact csq_contrib m c n h acc i)
      3 le_rfl h i)

end Cert.KernelIdeal.Acc

end
-- ==== Proof.SumTiles.lean ====
/-
Two regrouping identities for finite sums in a commutative additive monoid.
The first splits a sum over 65536 consecutive naturals into 8 consecutive
blocks of 8192 terms each.  The second reassembles a sum of 8 terms from two
groups of 4, each group accumulated starting from zero.
-/
import Mathlib.Algebra.BigOperators.Fin
import Mathlib.Logic.Equiv.Fin.Basic

open Finset

namespace Cert.SumTiles

/-- A sum of `f 0, …, f 65535` equals the sum over 8 blocks `t` of the sums of
`f (8192 * t + j)` for `j < 8192`. -/
theorem sum_tiles {β : Type*} [AddCommMonoid β] (f : ℕ → β) :
    ∑ k : Fin 65536, f k.val = ∑ t ∈ Finset.range 8, ∑ j : Fin 8192, f (8192 * t + j.val) := by
  rw [← Fin.sum_univ_eq_sum_range (fun t => ∑ j : Fin 8192, f (8192 * t + j.val)) 8]
  rw [← Fintype.sum_prod_type']
  have h := Equiv.sum_comp (finProdFinEquiv : Fin 8 × Fin 8192 ≃ Fin (8 * 8192))
    (fun k : Fin (8 * 8192) => f k.val)
  refine h.symm.trans ?_
  refine Finset.sum_congr rfl ?_
  intro x _
  rw [finProdFinEquiv_apply_val, Nat.add_comm]

/-- Two groups of four terms, each accumulated from zero, add up to the sum of
all eight terms. -/
theorem halves {β : Type*} [AddCommMonoid β] (M : ℕ → β) :
    (0 + ∑ s ∈ Finset.range 4, M (4 * 0 + s)) + (0 + ∑ s ∈ Finset.range 4, M (4 * 1 + s))
      = ∑ t ∈ Finset.range 8, M t := by
  simp only [Finset.sum_range_succ, Finset.sum_range_zero, zero_add, Nat.mul_zero, Nat.mul_one,
    Nat.reduceAdd, add_assoc]

end Cert.SumTiles
-- ==== Proof.Totals.lean ====
/-
The tile shares of the three Gram-type sums add up to the sums over the whole
feature axis.  The 65536 feature coordinates split into 8 consecutive tiles of
8192; the shares of tiles 0–3 and of tiles 4–7 are each accumulated from zero,
and the two partial sums together give the sum over all 65536 coordinates.
-/
import proofs.«176438_j9062380994856_2_alg».proof.Proof.Halves
import proofs.«176438_j9062380994856_2_alg».proof.Proof.SumTiles

noncomputable section

open Idealize.ShloMosaic Idealize.ShloMosaic.TcCoe Idealize.SL.Sem Idealize.ShloMosaic.ValueIdx

namespace Cert.KernelIdeal.Acc

open Cert.KernelIdeal Cert.KernelIdeal.Gen

/-- Summing a function of the column over the 8192 columns of each of the 8 tiles is summing it over
all 65536 columns. -/
theorem tiles_total (g : Fin 65536 → EReal) :
    ∑ t ∈ Finset.range 8, ∑ j : Fin 8192, g (colN t j) = ∑ k : Fin 65536, g k := by
  have h := Cert.SumTiles.sum_tiles (fun k : ℕ => g ⟨k % 65536, Nat.mod_lt _ (by decide)⟩)
  refine Eq.trans ?_ (h.symm.trans ?_)
  · rfl
  · exact Finset.sum_congr rfl fun k _ => congrArg g (Fin.ext (Nat.mod_eq_of_lt k.isLt))

/-- The two half-sums of the tiles' shares of the inner product of row `b` with centre `n` add up to the
inner product over all 65536 coordinates. -/
theorem cross_total (xf : Vec Ideal S64x65536 .f32) (cc : Vec Ideal S500x65536 .f32) (b : Fin 64) (n : Fin 500) :
    (0 + ∑ s ∈ Finset.range 4, crossAdd xf cc (4 * 0 + s) (ix2 b n)) + (0 + ∑ s ∈ Finset.range 4, crossAdd xf cc (4 * 1 + s) (ix2 b n))
      = ∑ k : Fin 65536, xf (ix2 b k) * cc (ix2 n k) :=
  (Cert.SumTiles.halves (fun t => crossAdd xf cc t (ix2 b n))).trans
    ((Finset.sum_congr rfl fun t _ => rfl).trans (tiles_total (fun k => xf (ix2 b k) * cc (ix2 n k))))

/-- The two half-sums of the tiles' shares of the squared norm of row `b` add up to zero plus the sum of
squares over all 65536 coordinates. -/
theorem xsq_total (xf : Vec Ideal S64x65536 .f32) (b : Fin 64) (z : Fin 1) :
    (0 + ∑ s ∈ Finset.range 4, xsqAdd xf (4 * 0 + s) (ix2 b z)) + (0 + ∑ s ∈ Finset.range 4, xsqAdd xf (4 * 1 + s) (ix2 b z))
      = 0 + ∑ k : Fin 65536, xf (ix2 b k) * xf (ix2 b k) :=
  (Cert.SumTiles.halves (fun t => xsqAdd xf t (ix2 b z))).trans
    (((Finset.sum_congr rfl fun t _ => rfl).trans (tiles_total (fun k => xf (ix2 b k) * xf (ix2 b k)))).trans
      (zero_add _).symm)

/-- The two half-sums of the tiles' shares of the squared norm of centre `n` add up to zero plus the sum of
squares over all 65536 coordinates. -/
theorem csq_total (cc : Vec Ideal S500x65536 .f32) (z : Fin 1) (n : Fin 500) :
    (0 + ∑ s ∈ Finset.range 4, csqAdd cc (4 * 0 + s) (ix2 z n)) + (0 + ∑ s ∈ Finset.range 4, csqAdd cc (4 * 1 + s) (ix2 z n))
      = 0 + ∑ k : Fin 65536, cc (ix2 n k) * cc (ix2 n k) :=
  (Cert.SumTiles.halves (fun t => csqAdd cc t (ix2 z n))).trans
    (((Finset.sum_congr rfl fun t _ => rfl).trans (tiles_total (fun k => cc (ix2 n k) * cc (ix2 n k)))).trans
      (zero_add _).symm)

end Cert.KernelIdeal.Acc

end
-- ==== Proof.Reference.lean ====
/-
The reference program read at an index, over the extended reals.  Its three
Gram-type arrays (row sums of squares of the flattened input, sums of squares
of each centre, and the matrix of inner products of inputs with centres) are
each written out as an explicit sum over the 65536 flattened coordinates; the
remaining part of the program (squared distance, radial kernel, linear head)
is named as a function of those three arrays.
-/
import proofs.«176438_j9062380994856_2_alg».proof.Proof.Gen.ReferenceIdeal.Read
import Idealize.ShloMosaic.Lib.ValueIdx
import Idealize.ShloMosaic.Lib.Pipeline.Value
import Idealize.ShloMosaic.PureOps.Ideal.Laws

noncomputable section

open Idealize.ShloMosaic Idealize.ShloMosaic.TcCoe Idealize.SL.Sem Idealize.ShloMosaic.ValueIdx

namespace Cert.ReferenceIdeal.Gram

open Cert.ReferenceIdeal Cert.ReferenceIdeal.Gen Cert.ReferenceIdeal.Read

/-- The part of the program after the three Gram-type arrays: squared distance, radial kernel, linear head. -/
def tail (p : Option ContractPrecision) (cross : FVec Ideal S64x500 .f32) (xsq : FVec Ideal S64x1 .f32)
    (csq : FVec Ideal S1x500 .f32) (w : FVec Ideal S8x500 .f32) (bias : FVec Ideal S8 .f32) :
    FVec Ideal S64x8 .f32 :=
  addf (Host.dotGeneral (F := Ideal) (φ₁ := .f32) (φ₂ := .f32) dot_S64x500_S500x8_S64x8_1_0_0_1_n_n p
      (Host.exp (mulf (val_main_v15 (F := Ideal)) (addf (subf (broadcastInDim S64x500 ![0, 1] bcast_S64x1_S64x500_0_1 xsq) (mulf (val_main_v8 (F := Ideal)) cross)) (broadcastInDim S64x500 ![0, 1] bcast_S1x500_S64x500_0_1 csq))))
      (val_main_v18 (F := Ideal) w)) (val_main_v21 (F := Ideal) bias)

/-- The whole reference is the tail applied to its three Gram-type arrays. -/
theorem ref_eq_tail (x0 : (⟨S64x256x256, .f32⟩ : BufTy).Contents (Elt Ideal))
    (x1 : (⟨S500x65536, .f32⟩ : BufTy).Contents (Elt Ideal))
    (x2 : (⟨S8x500, .f32⟩ : BufTy).Contents (Elt Ideal)) (x3 : (⟨S8, .f32⟩ : BufTy).Contents (Elt Ideal)) :
    val_main_v22 (F := Ideal) x0 x1 x2 x3
      = tail none (val_main_v7 (F := Ideal) x0 x1) (val_main_v3 (F := Ideal) x0) (val_main_v12 (F := Ideal) x1) x2 x3 :=
  rfl

/-- Over the extended reals the matrix product carries no rounding, so the tail does not depend on the
precision argument of its product. -/
theorem tail_prec (p q : Option ContractPrecision) (cross : FVec Ideal S64x500 .f32) (xsq : FVec Ideal S64x1 .f32)
    (csq : FVec Ideal S1x500 .f32) (w : FVec Ideal S8x500 .f32) (bias : FVec Ideal S8 .f32) :
    tail p cross xsq csq w bias = tail q cross xsq csq w bias := by
  funext i
  unfold tail
  rw [addf_apply, addf_apply]
  refine congrArg (· + _) ?_
  simp only [Host.dotGeneral]
  rw [Ideal.dotGeneral_apply, Ideal.dotGeneral_apply]

/-- The inner-product array at row `b`, centre `n`: the sum over all flattened coordinates `k` of the input's
`k`-th coordinate times the centre's. -/
theorem ref_cross (x0 : (⟨S64x256x256, .f32⟩ : BufTy).Contents (Elt Ideal))
    (x1 : (⟨S500x65536, .f32⟩ : BufTy).Contents (Elt Ideal)) (b : Fin 64) (n : Fin 500) :
    val_main_v7 (F := Ideal) x0 x1 (ix2 b n)
      = ∑ k : Fin 65536, val_main_v0 (F := Ideal) x0 (ix2 b k) * x1 (ix2 n k) := by
  rw [val_main_v7_apply]
  refine Finset.sum_congr rfl fun k _ => ?_
  rw [val_main_v6_apply]
  have el : lidx_main_v7 (ix2 b n) k = ix2 b k :=
    funext fun a => Fin.ext (by match a with | ⟨0, _⟩ => rfl | ⟨1, _⟩ => rfl)
  have er : idx_main_v6 (ridx_main_v7 (ix2 b n) k) = ix2 n k :=
    funext fun a => Fin.ext (by match a with | ⟨0, _⟩ => rfl | ⟨1, _⟩ => rfl)
  rw [el, er]

/-- The input's squared norm at row `b`: zero plus the sum over all flattened coordinates of the square. -/
theorem ref_xsq (x0 : (⟨S64x256x256, .f32⟩ : BufTy).Contents (Elt Ideal)) (b : Fin 64) (z : Fin 1) :
    val_main_v3 (F := Ideal) x0 (ix2 b z)
      = 0 + ∑ k : Fin 65536, val_main_v0 (F := Ideal) x0 (ix2 b k) * val_main_v0 (F := Ideal) x0 (ix2 b k) := by
  rw [val_main_v3_apply, val_main_v2_apply, val_main_cst_apply]
  refine congrArg₂ (· + ·) Ideal.ofBits_zero_f32 (Finset.sum_congr rfl fun k _ => ?_)
  rw [val_main_v1_apply]
  have e : idx_main_v2 (idx_main_v3 (ix2 b z)) k = ix2 b k :=
    funext fun a => Fin.ext (by match a with | ⟨0, _⟩ => rfl | ⟨1, _⟩ => rfl)
  rw [e]
  rfl

/-- The squared norm of centre `n`: zero plus the sum over all flattened coordinates of the square. -/
theorem ref_csq (x1 : (⟨S500x65536, .f32⟩ : BufTy).Contents (Elt Ideal)) (z : Fin 1) (n : Fin 500) :
    val_main_v12 (F := Ideal) x1 (ix2 z n) = 0 + ∑ k : Fin 65536, x1 (ix2 n k) * x1 (ix2 n k) := by
  rw [val_main_v12_apply, val_main_v5_apply, val_main_cst_0_apply]
  refine congrArg₂ (· + ·) Ideal.ofBits_zero_f32 (Finset.sum_congr rfl fun k _ => ?_)
  rw [val_main_v4_apply]
  have e : idx_main_v5 (idx_main_v12 (ix2 z n)) k = ix2 n k :=
    funext fun a => Fin.ext (by match a with | ⟨0, _⟩ => rfl | ⟨1, _⟩ => rfl)
  rw [e]
  rfl

end Cert.ReferenceIdeal.Gram

end
-- ==== Proof.Bridge.lean ====
/-
  The two programs compute one function. Entry by entry on the extended reals:
    the kernel's cross products, half 0 plus half 1, are Σ over all 65536 coordinates of x[b, k] · c[n, k] — the
    reference's matrix product; likewise the two families of squared norms (each half-sum starts from zero, the
    reference's sums start from zero too). Only regrouping of finite sums is used, which needs no finiteness.
  After these three arrays both programs apply the same operations (squared distance, radial kernel, linear head);
  on the extended reals the head's matrix product does not see the precision it is asked for.
-/
import proofs.«176438_j9062380994856_2_alg».proof.Proof.KernelRun
import proofs.«176438_j9062380994856_2_alg».proof.Proof.Halves
import proofs.«176438_j9062380994856_2_alg».proof.Proof.Totals
import proofs.«176438_j9062380994856_2_alg».proof.Proof.Reference
import Idealize.ShloMosaic.Lib.ValueLayout

set_option maxRecDepth 16384

noncomputable section

open Idealize.ShloMosaic Idealize.ShloMosaic.TcCoe Idealize.SL.Sem
open Idealize.ShloMosaic.ValueIdx

namespace Cert.KernelIdeal.Acc

open Cert.KernelIdeal Cert.KernelIdeal.Gen

/-! ## The host's half-sums at an entry -/

theorem sum2_apply (o : Vec Ideal S2x64x500 .f32) (b : Fin 64) (n : Fin 500) :
    sum2 (F := Ideal) o (ix2 b n) = o (ix3 (⟨0, by decide⟩ : Fin 2) b n) + o (ix3 (⟨1, by decide⟩ : Fin 2) b n) := by
  unfold sum2
  rw [addf_apply]
  refine congrArg₂ (· + ·) ?_ ?_
  · refine (shapeCast_1ab_ab_apply _ shapeCasts_S1x64x500_S64x500 b n).trans ?_
    exact extractStridedSlice_apply _ o _ _ _ (fun a => by
      match a with
      | ⟨0, _⟩ => rfl
      | ⟨1, _⟩ => exact (Nat.zero_add _).symm
      | ⟨2, _⟩ => exact (Nat.zero_add _).symm)
  · refine (shapeCast_1ab_ab_apply _ shapeCasts_S1x64x500_S64x500 b n).trans ?_
    exact extractStridedSlice_apply _ o _ _ _ (fun a => by
      match a with
      | ⟨0, _⟩ => rfl
      | ⟨1, _⟩ => exact (Nat.zero_add _).symm
      | ⟨2, _⟩ => exact (Nat.zero_add _).symm)

theorem sum3_apply (o : Vec Ideal S2x64x1 .f32) (b : Fin 64) (z : Fin 1) :
    sum3 (F := Ideal) o (ix2 b z) = o (ix3 (⟨0, by decide⟩ : Fin 2) b z) + o (ix3 (⟨1, by decide⟩ : Fin 2) b z) := by
  unfold sum3
  rw [addf_apply]
  refine congrArg₂ (· + ·) ?_ ?_
  · refine (shapeCast_1ab_ab_apply _ shapeCasts_S1x64x1_S64x1 b z).trans ?_
    exact extractStridedSlice_apply _ o _ _ _ (fun a => by
      match a with
      | ⟨0, _⟩ => rfl
      | ⟨1, _⟩ => exact (Nat.zero_add _).symm
      | ⟨2, _⟩ => exact (Nat.zero_add _).symm)
  · refine (shapeCast_1ab_ab_apply _ shapeCasts_S1x64x1_S64x1 b z).trans ?_
    exact extractStridedSlice_apply _ o _ _ _ (fun a => by
      match a with
      | ⟨0, _⟩ => rfl
      | ⟨1, _⟩ => exact (Nat.zero_add _).symm
      | ⟨2, _⟩ => exact (Nat.zero_add _).symm)

theorem sum4_apply (o : Vec Ideal S2x1x500 .f32) (z : Fin 1) (n : Fin 500) :
    sum4 (F := Ideal) o (ix2 z n) = o (ix3 (⟨0, by decide⟩ : Fin 2) z n) + o (ix3 (⟨1, by decide⟩ : Fin 2) z n) := by
  unfold sum4
  rw [addf_apply]
  refine congrArg₂ (· + ·) ?_ ?_
  · refine (shapeCast_1ab_ab_apply _ shapeCasts_S1x1x500_S1x500 z n).trans ?_
    exact extractStridedSlice_apply _ o _ _ _ (fun a => by
      match a with
      | ⟨0, _⟩ => rfl
      | ⟨1, _⟩ => exact (Nat.zero_add _).symm
      | ⟨2, _⟩ => exact (Nat.zero_add _).symm)
  · refine (shapeCast_1ab_ab_apply _ shapeCasts_S1x1x500_S1x500 z n).trans ?_
    exact extractStridedSlice_apply _ o _ _ _ (fun a => by
      match a with
      | ⟨0, _⟩ => rfl
      | ⟨1, _⟩ => exact (Nat.zero_add _).symm
      | ⟨2, _⟩ => exact (Nat.zero_add _).symm)

variable (m : (ℓ : Loc nD τ sig) → Buf (Elt Ideal) ℓ)

/-! ## The three arrays after the launch at an entry -/

theorem out2_apply (c : Dev nD) (q : ℕ) (hq : q < 2) (b : Fin 64) (n : Fin 500) :
    out2 m c (ix3 (⟨q, hq⟩ : Fin 2) b n) = 0 + ∑ s ∈ Finset.range 4, crossAdd (V m c main_v0) (V m c main_arg1) (4 * q + s) (ix2 b n) := by
  unfold out2
  refine (copy_cross _ (0 : Fin 1) b n).trans ?_
  exact cross_half m c q (half_lt ⟨q, hq⟩) (ix2 b n)

theorem out3_apply (c : Dev nD) (q : ℕ) (hq : q < 2) (b : Fin 64) (z : Fin 1) :
    out3 m c (ix3 (⟨q, hq⟩ : Fin 2) b z) = 0 + ∑ s ∈ Finset.range 4, xsqAdd (V m c main_v0) (4 * q + s) (ix2 b z) := by
  unfold out3
  refine (copy_xsq _ (0 : Fin 1) b z).trans ?_
  exact xsq_half m c q (half_lt ⟨q, hq⟩) (ix2 b z)

theorem out4_apply (c : Dev nD) (q : ℕ) (hq : q < 2) (z : Fin 1) (n : Fin 500) :
    out4 m c (ix3 (⟨q, hq⟩ : Fin 2) z n) = 0 + ∑ s ∈ Finset.range 4, csqAdd (V m c main_arg1) (4 * q + s) (ix2 z n) := by
  unfold out4
  refine (copy_csq _ (0 : Fin 1) z n).trans ?_
  exact csq_half m c q (half_lt ⟨q, hq⟩) (ix2 z n)

/-! ## The three arrays are the reference's -/

/-- The flattened x the launch finds is the reference's flattened x. -/
theorem flat_ref (c : Dev nD) : (V m c main_v0 : Vec Ideal S64x65536 .f32) = Cert.ReferenceIdeal.Read.val_main_v0 (F := Ideal) (m ((c : Thread nD τ).loc main_arg0)) :=
  flat_x m c

/-- The cross products: half 0 plus half 1 is the reference's matrix product of x with the transposed centres. -/
theorem cross_eq (c : Dev nD) : sum2 (out2 m c) = Cert.ReferenceIdeal.Read.val_main_v7 (F := Ideal) (m ((c : Thread nD τ).loc main_arg0)) (m ((c : Thread nD τ).loc main_arg1)) := by
  funext i
  obtain ⟨b, n, rfl⟩ : ∃ (b : Fin 64) (n : Fin 500), i = ix2 b n := ⟨i 0, i 1, eq_ix2 i⟩
  rw [sum2_apply, out2_apply, out2_apply]
  refine (cross_total _ _ b n).trans ?_
  rw [flat_ref m c, V_main_arg1 m c]
  exact (Cert.ReferenceIdeal.Gram.ref_cross _ _ b n).symm

/-- The squared norms of x's rows: half 0 plus half 1 is the reference's row sum of squares. -/
theorem xsq_eq (c : Dev nD) : sum3 (out3 m c) = Cert.ReferenceIdeal.Read.val_main_v3 (F := Ideal) (m ((c : Thread nD τ).loc main_arg0)) := by
  funext i
  obtain ⟨b, z, rfl⟩ : ∃ (b : Fin 64) (z : Fin 1), i = ix2 b z := ⟨i 0, i 1, eq_ix2 i⟩
  rw [sum3_apply, out3_apply, out3_apply]
  refine (xsq_total _ b z).trans ?_
  rw [flat_ref m c]
  exact (Cert.ReferenceIdeal.Gram.ref_xsq _ b z).symm

/-- The squared norms of the centres: half 0 plus half 1 is the reference's sum of squares of each centre. -/
theorem csq_eq (c : Dev nD) : sum4 (out4 m c) = Cert.ReferenceIdeal.Read.val_main_v12 (F := Ideal) (m ((c : Thread nD τ).loc main_arg1)) := by
  funext i
  obtain ⟨z, n, rfl⟩ : ∃ (z : Fin 1) (n : Fin 500), i = ix2 z n := ⟨i 0, i 1, eq_ix2 i⟩
  rw [sum4_apply, out4_apply, out4_apply]
  refine (csq_total _ z n).trans ?_
  rw [V_main_arg1 m c]
  exact (Cert.ReferenceIdeal.Gram.ref_csq _ z n).symm

/-! ## The same tail -/

/-- The kernel's host operations after the three arrays are the reference's, the head's product asked for another precision. -/
theorem ktail_eq (cross : FVec Ideal S64x500 .f32) (xsq : FVec Ideal S64x1 .f32) (csq : FVec Ideal S1x500 .f32)
    (w : FVec Ideal S8x500 .f32) (bias : FVec Ideal S8 .f32) :
    ktail (F := Ideal) cross xsq csq w bias = Cert.ReferenceIdeal.Gram.tail (some .fp32) cross xsq csq w bias := rfl

/-- The kernel's result is the reference's result term of the same arguments. -/
theorem result_ref (c : Dev nD) :
    ktail (sum2 (out2 m c)) (sum3 (out3 m c)) (sum4 (out4 m c)) (m ((c : Thread nD τ).loc main_arg2)) (m ((c : Thread nD τ).loc main_arg3))
      = Cert.ReferenceIdeal.Read.val_main_v22 (F := Ideal) (m ((c : Thread nD τ).loc main_arg0)) (m ((c : Thread nD τ).loc main_arg1)) (m ((c : Thread nD τ).loc main_arg2)) (m ((c : Thread nD τ).loc main_arg3)) := by
  rw [ktail_eq, Cert.ReferenceIdeal.Gram.tail_prec (some .fp32) none, cross_eq m c, xsq_eq m c, csq_eq m c]
  exact (Cert.ReferenceIdeal.Gram.ref_eq_tail _ _ _ _).symm

end Cert.KernelIdeal.Acc

end
-- ==== Proof.lean ====
/-
  The radial-basis head: for 64 inputs x (flattened to 65536 coordinates) and 500 centres c, the squared distances
  ‖x‖² − 2·x·c + ‖c‖², the kernel values exp(γ'·dist) and a linear head. One program computes the three Gram-type
  arrays (x·cᵀ, ‖x‖², ‖c‖²) on the device, the feature axis cut into two halves of four tiles each, each half
  accumulated tile by tile from zero and the two halves added afterwards; the other computes them as three whole
  sums. On the extended reals the two agree entry by entry, because a finite sum may be regrouped freely, and from
  the three arrays on both programs apply the same operations. The frames are the generated ones; the idealization
  rewrote nothing, so it is preserved trivially.
-/
import proofs.«176438_j9062380994856_2_alg».proof.Defs
import proofs.«176438_j9062380994856_2_alg».proof.Proof.Gen.Kernel
import proofs.«176438_j9062380994856_2_alg».proof.Proof.Gen.Kernel.Skeleton
import proofs.«176438_j9062380994856_2_alg».proof.Proof.Gen.Kernel.Launch
import proofs.«176438_j9062380994856_2_alg».proof.Proof.Gen.Kernel.Points
import proofs.«176438_j9062380994856_2_alg».proof.Proof.Gen.Kernel.Frame
import proofs.«176438_j9062380994856_2_alg».proof.Proof.Gen.KernelIdeal
import proofs.«176438_j9062380994856_2_alg».proof.Proof.Gen.KernelIdeal.Skeleton
import proofs.«176438_j9062380994856_2_alg».proof.Proof.Gen.KernelIdeal.Launch
import proofs.«176438_j9062380994856_2_alg».proof.Proof.Gen.KernelIdeal.Points
import proofs.«176438_j9062380994856_2_alg».proof.Proof.Gen.KernelIdeal.Frame
import proofs.«176438_j9062380994856_2_alg».proof.Proof.Gen.ReferenceIdeal
import proofs.«176438_j9062380994856_2_alg».proof.Proof.Gen.ReferenceIdeal.Run
import proofs.«176438_j9062380994856_2_alg».proof.Proof.Gen.ReferenceIdeal.Read
import proofs.«176438_j9062380994856_2_alg».proof.Proof.Gen.Pre_finite_inputs
import proofs.«176438_j9062380994856_2_alg».proof.Proof.Bridge
import Idealize.ShloMosaic.Adequacy
import Idealize.ShloMosaic.Init

noncomputable section

namespace Cert.Proof

open Idealize.ShloMosaic Idealize.SL.Sem

/-- The word-level program runs and leaves its arguments as they were. -/
theorem frame_k : Cert.frame_Kernel := fun m ρ _ => Cert.Kernel.Gen.frame m ρ

/-- So does its reading on the extended reals. -/
theorem frame_ki : Cert.frame_KernelIdeal := fun m ρ _ => Cert.KernelIdeal.Gen.frame m ρ

/-- So does the reference: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Reading the program on the extended reals rewrote no operation. -/
theorem preserves : Cert.preserves_Kernel_KernelIdeal := trivial

/-- From memories that agree on the four arguments both programs end with the same result array: the kernel's is
    the common tail of its three half-sums, the reference's the same tail of its three whole sums, and the sums agree. -/
theorem algebraic : Cert.algebraic_KernelIdeal_ReferenceIdeal := by
  intro m ρ m' ρ' _ hagree
  refine ⟨_, Cert.KernelIdeal.Acc.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v22_eq, (hagree c).1, (hagree c).2.1, (hagree c).2.2.1, (hagree c).2.2.2]
  exact (Cert.KernelIdeal.Acc.result_ref m c).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
